-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x5000x10000 : Shape := ⟨3, ![2, 5000, 10000]⟩
abbrev S1x128 : Shape := ⟨2, ![1, 128]⟩
abbrev S2x5000x128 : Shape := ⟨3, ![2, 5000, 128]⟩
abbrev S1x200x10000 : Shape := ⟨3, ![1, 200, 10000]⟩
abbrev S2x200x128 : Shape := ⟨3, ![2, 200, 128]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S1x200x128 : Shape := ⟨3, ![1, 200, 128]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x5000x10000, .f32⟩
  | .hbm, ⟨5, _⟩ => ⟨S1x128, .f32⟩
  | .hbm, ⟨6, _⟩ => ⟨S2x5000x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x200x10000, .f32⟩
  | .local _ .vmem, ⟨4, _⟩ => ⟨S1x200x10000, .f32⟩
  | .local _ .vmem, ⟨5, _⟩ => ⟨S1x200x10000, .f32⟩
  | .local _ .vmem, ⟨6, _⟩ => ⟨S1x200x10000, .f32⟩
  | .local _ .vmem, ⟨7, _⟩ => ⟨S2x200x128, .f32⟩
  | .local _ .vmem, ⟨8, _⟩ => ⟨S2x200x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) (c0_i32_7 : BitVec 32) : Fin 2 → Nat :=
  let arg0 : BitVec 32 := BitVec.ofNat 32 (i 0).val
  let c200_i32 : BitVec 32 := 200#32
  let v10 : BitVec 32 := Scalar.muli arg0 c200_i32
  let v11 : BitVec 32 := Scalar.addi c0_i32_7 v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S10000x10000_S2x5000x10000 : S10000x10000.ShapeCasts S2x5000x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  h_S200x128 : 0 < S200x128.numel
  reduces_S200x128_S200 : S200x128.Reduces [1] S200
  shapeCasts_S200_S200x1 : S200.ShapeCasts S200x1
  broadcasts_S200x1_S200x128 : S200x1.Broadcasts S200x128
  broadcasts_S1x128_S200x128 : S1x128.Broadcasts S200x128
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  shapeCasts_S2x5000x128_S10000x128 : S2x5000x128.ShapeCasts S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ (r : Fin 2), ∀ a, (k0_off1 i (BitVec.ofNat 32 (5000 * r.val))) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x10000.size a ≤ S2x5000x10000.size a
  hwx0_3 : ∀ i : grid0.Coords, EltTy.bits .f32 = 32 ∨ (Rect.block (s := S2x5000x10000) S1x200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x200x10000.size a ≤ S2x5000x10000.size a
  hwx0_4 : ∀ i : grid0.Coords, EltTy.bits .f32 = 32 ∨ (Rect.block (s := S2x5000x10000) S1x200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000, .f32⟩
  | .hbm, ⟨16, _⟩ => ⟨S10000x1, .f32⟩
  | .hbm, ⟨17, _⟩ => ⟨S10000x1, .f32⟩
  | .hbm, ⟨18, _⟩ => ⟨S_, .f32⟩
  | .hbm, ⟨19, _⟩ => ⟨S10000x1, .f32⟩
  | .hbm, ⟨20, _⟩ => ⟨S10000x1, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsSetup.lean ====
/-
  The graph-convolution kernel's one region, as its grid points see it.

  The region is entered after two re-layings of arguments (the adjacency as two stacked halves, the bias as a one-row
  matrix). Six windows: the node features, the weight and the bias (whole arrays, fetched once), the two halves of
  the adjacency (one block of 200 rows each per point, both windows on the SAME re-laid array), and the output
  (two blocks of 200 rows per point). A scratch buffer holds the support matrix x·w: the first point fills it,
  every later point reads it.
-/
import proofs.«175795_g70068096467658_cont_9to1_m_110_7_alg».proof.Proof.Gen.Kernel.Launch
import proofs.«175795_g70068096467658_cont_9to1_m_110_7_alg».proof.Proof.Gen.Kernel.Skeleton
import proofs.«175795_g70068096467658_cont_9to1_m_110_7_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch. -/
abbrev W0 (c : Dev nD) : Valuation τ sig (Elt F) := fun b => m (c, b)
/-- After the two re-layings before the region. -/
abbrev W1 (c : Dev nD) : Valuation τ sig (Elt F) := StableHlo.after hostOps0 (W0 m c)
/-- The same read at a TensorCore reference: what the region finds. -/
abbrev V (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input window's staging buffer holds its block at every point, fetched there or not -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: "is this the first point?" -/

/-- The branch's condition, from the grid coordinate. -/
abbrev isFirst (i : grid0.Coords) : Prop := (Scalar.cmpi .ne (Scalar.extui (Scalar.cmpi .eq (BitVec.ofNat 32 (i 0).val) 0#32)) 0#32) = 1#1
/-- It holds at point 0 and at no other of the 25. -/
theorem isFirst_iff : ∀ t : Fin cfg0.N, isFirst (grid0.coords t) ↔ t.val % 25 = 0 :=
  (by decide +kernel : ∀ t : Fin grid0.N, isFirst (grid0.coords t) ↔ t.val % 25 = 0)

/-- No window is idle anywhere. -/
theorem live_all : ∀ (w : Fin cfg0.W) (t : Fin cfg0.N), cfg0.idle w (grid0.coords t) = false := by decide +kernel

/-! ## The staging memrefs at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x200x128 .f32 := win0_5.stage (cfg0.slots t 5)
abbrev hs5 (t : Fin cfg0.N) : (ms5 t).IsWhole := hstage0_5 ((cfg0.slots t 5).cast nbuf0_5)
/-- The scratch holding the support matrix, whole. -/
abbrev scM : Memref sig .tc .vmem S10000x128 .bf16 := Memref.whole cc0_scratch0
abbrev VS : View sig .tc .vmem S10000x128 .bf16 := scM.view
/-- One staging buffer of the output window, through which its contents are stated. -/
abbrev VO : View sig .tc .vmem S2x200x128 .f32 := (Memref.whole cc0_stg5_0 : Memref sig .tc .vmem S2x200x128 .f32).view

/-- What the region lends the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BitsRunFirst.lean ====
/-
  The body at the FIRST grid point: the branch is taken, so the support matrix x·w is computed from the whole
  feature and weight blocks and stored into the scratch; then both 200-row halves of the output block are computed
  from the scratch just written and stored. The lists of pieces each buffer ends with are found by running the body.
-/
import proofs.«175795_g70068096467658_cont_9to1_m_110_7_alg».proof.Proof.BitsSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the output's and the scratch's at anything — the
    body at a point where the branch is taken runs to the continuation holding the inputs' as they were, the output's
    with its two pieces written, the scratch's with the support written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) :
    Σ' (L5 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Hand

end
-- ==== Proof.BitsRunLater.lean ====
/-
  The body at every LATER grid point: the branch is not taken, the scratch already holds the support matrix and is
  only read; both 200-row halves of the output block are computed from it and stored.
-/
import proofs.«175795_g70068096467658_cont_9to1_m_110_7_alg».proof.Proof.BitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the scratch's at contents `xs`, the output's at
    anything — the body at a point where the branch is not taken runs to the continuation holding the inputs' and the
    scratch's as they were and the output's with its two pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) :
    { L5 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.Kernel.Hand

end
-- ==== Proof.BitsBody.lean ====
/-
  What the region's buffers hold from point to point, and the body's obligation at every point.

  The scratch: before the first point anything; after it, and after every later point, the support matrix the
  first point computed from the whole feature and weight blocks (later points only read it). The output window's
  staging buffer after a point: the two 200-row pieces the body stored there, computed from the point's two
  adjacency blocks, the matching feature rows, the bias and the scratch. The adjacency array is lent to its two
  windows at the two halves of the full share.
-/
import proofs.«175795_g70068096467658_cont_9to1_m_110_7_alg».proof.Proof.BitsRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first grid point. -/
abbrev t0 : Fin cfg0.N := ⟨0, by decide⟩

theorem isFirst_t0 : isFirst (grid0.coords t0) := (isFirst_iff t0).mpr (Nat.zero_mod _)

/-! ## The pieces the two runs found, read back -/

/-- The first point's pieces for the scratch tile it. -/
theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- What the first point leaves in the scratch. -/
def soutFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) : Vec F S10000x128 .bf16 :=
  VS.read (Elt F) (VS.writes (Elt F) VS.junk (runFirst c i arg1 harg1 arg2 harg2 arg3 harg3 arg4 harg4 arg5 harg5 arg6 harg6 arg7 harg7 hc x0 x1 x2 x3 x4).2.1)

/-- The first point's pieces for the output block tile it. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) (y : S2x200x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S1x200x128.size (by sl_kernel_rfl) y

/-- What the first point leaves in the output block's buffer. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) : Vec F S2x200x128 .f32 :=
  VO.read (Elt F) (VO.writes (Elt F) VO.junk (runFirst c i arg1 harg1 arg2 harg2 arg3 harg3 arg4 harg4 arg5 harg5 arg6 harg6 arg7 harg7 hc x0 x1 x2 x3 x4).1)

/-- A later point's pieces for the output block tile it. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) (y : S2x200x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S1x200x128.size (by sl_kernel_rfl) y

/-- What a later point leaves in the output block's buffer. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) : Vec F S2x200x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## From point to point -/

/-- The scratch after the first point, and after every later one: the support matrix of the whole feature and
    weight blocks. -/
def supAfter (c : Dev nD) : Vec F S10000x128 .bf16 :=
  soutFirst c (grid0.coords t0) (ms0 t0) (hs0 t0) (ms1 t0) (hs1 t0) (ms2 t0) (hs2 t0) (ms3 t0) (hs3 t0) (ms4 t0) (hs4 t0) (ms5 t0) (hs5 t0) scM (Memref.isWhole_whole _) isFirst_t0 (iblk m c 0 t0) (iblk m c 1 t0) (iblk m c 2 t0) (iblk m c 3 t0) (iblk m c 4 t0)

/-- The output block's buffer after point `t`. -/
def out5 (c : Dev nD) (t : Fin cfg0.N) : Vec F S2x200x128 .f32 :=
  if h : t.val % 25 = 0 then
    outFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((isFirst_iff t).mp hc)) (iblk m c 0 t) (iblk m c 1 t) (iblk m c 2 t) (iblk m c 3 t) (iblk m c 4 t) (supAfter m c)

/-- What the body may rely on besides the windows, before position `n`: before the first point the scratch at
    anything; afterwards the scratch at the support matrix. The generator register rides along. -/
def PhiS (c : Dev nD) : ℕ → sProp 𝕄
  | 0 => Pipeline.ΦA spec0 c
  | _ + 1 => iprop(iprop(owns (c : Thread nD τ) scM fullShare (supAfter m c)) ∗ (∃ r, prngReg c r))

theorem PhiS_pos (c : Dev nD) (n : ℕ) (hz : n ≠ 0) :
    PhiS m c n = iprop(iprop(owns (c : Thread nD τ) scM fullShare (supAfter m c)) ∗ (∃ r, prngReg c r)) := by
  cases n with
  | zero => exact absurd rfl hz
  | succ n => rfl

/-! ## The proof data -/

/-- The arrays as the region finds them; after the body each input's buffer at its block, the output's at `out5`;
    the adjacency array's full share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

theorem Phi_castSucc (c : Dev nD) (t : Fin cfg0.N) : (dats m 0 c).Φ t.castSucc = PhiS m c t.val := by
  dsimp only [dats]; simp only [Fin.coe_castSucc]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- At the first point the branch is taken and the first run applies, the scratch handed over at anything and
    taken back at the support matrix; at a later point the second run applies, the scratch at the support matrix
    in and out. The inputs' buffers hold their blocks throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(iprop(owns (c : Thread nD τ) scM fullShare (supAfter m c)) ∗ (∃ r, prngReg c r)) from rfl]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live_all 0 t], after0]
  rw [show (dats m 0 c).leavesExact 1 t = owns (c : Thread nD τ) (ms1 t) fullShare ((dats m 0 c).after 1 t) from by
    unfold Dat.leavesExact; rw [live_all 1 t], after1]
  rw [show (dats m 0 c).leavesExact 2 t = owns (c : Thread nD τ) (ms2 t) fullShare ((dats m 0 c).after 2 t) from by
    unfold Dat.leavesExact; rw [live_all 2 t], after2]
  rw [show (dats m 0 c).leavesExact 3 t = owns (c : Thread nD τ) (ms3 t) fullShare ((dats m 0 c).after 3 t) from by
    unfold Dat.leavesExact; rw [live_all 3 t], after3]
  rw [show (dats m 0 c).leavesExact 4 t = owns (c : Thread nD τ) (ms4 t) fullShare ((dats m 0 c).after 4 t) from by
    unfold Dat.leavesExact; rw [live_all 4 t], after4]
  rw [show (dats m 0 c).leavesExact 5 t = owns (c : Thread nD τ) (ms5 t) fullShare ((dats m 0 c).after 5 t) from by
    unfold Dat.leavesExact; rw [live_all 5 t], after5]
  rw [Phi_castSucc m c t]
  by_cases h0 : t.val % 25 = 0
  · have hz : t.val = 0 := by omega
    obtain rfl : t = t0 := Fin.ext hz
    rw [show PhiS m c (t0 : Fin cfg0.N).val = Pipeline.ΦA spec0 c from rfl, PhiA_eq]
    rw [show out5 m c t0 = outFirst c (grid0.coords t0) (ms0 t0) (hs0 t0) (ms1 t0) (hs1 t0) (ms2 t0) (hs2 t0) (ms3 t0) (hs3 t0) (ms4 t0) (hs4 t0) (ms5 t0) (hs5 t0) scM (Memref.isWhole_whole _) isFirst_t0 (iblk m c 0 t0) (iblk m c 1 t0) (iblk m c 2 t0) (iblk m c 3 t0) (iblk m c 4 t0) from dif_pos h0]
    unfold outFirst supAfter soutFirst
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t0) _ _ _ _ _ _ _ _ _ _ _ _ _ _ isFirst_t0 (iblk m c 0 t0) (iblk m c 1 t0) (iblk m c 2 t0) (iblk m c 3 t0) (iblk m c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · have hz : t.val ≠ 0 := fun h => h0 (by rw [h])
    rw [PhiS_pos m c _ hz]
    rw [show out5 m c t = outLater c (grid0.coords t) (ms0 t) (hs0 t) (ms1 t) (hs1 t) (ms2 t) (hs2 t) (ms3 t) (hs3 t) (ms4 t) (hs4 t) (ms5 t) (hs5 t) scM (Memref.isWhole_whole _) (fun hc => h0 ((isFirst_iff t).mp hc)) (iblk m c 0 t) (iblk m c 1 t) (iblk m c 2 t) (iblk m c 3 t) (iblk m c 4 t) (supAfter m c) from dif_neg h0]
    unfold outLater
    iintro ⟨⟨HS, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => h0 ((isFirst_iff t).mp hc)) (iblk m c 0 t) (iblk m c 1 t) (iblk m c 2 t) (iblk m c 3 t) (iblk m c 4 t) (supAfter m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The obligation at every point. -/
theorem body_obligation (c : Dev nD) : BodyObligation (dats (F := F) m 0 c) (defs₀ (F := F)) Variants.none () Set.univ := fun t => by
  rw [bigSep_W0, bigSep_W0]
  exact sound_body m c t

/-- What the launch lends the region is the invariant before the first point. -/
theorem hin (c : Dev nD) : Pipeline.ΦA spec0 c ⊢ (dats m 0 c).Φ 0 := Idealize.SL.BI.Entails.refl _

/-- After the last point the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

theorem q3 (c : Dev nD) : (dats m 0 c).q 3 = fullShare.left := rfl
theorem q4 (c : Dev nD) : (dats m 0 c).q 4 = fullShare.right := rfl
theorem q_other (c : Dev nD) (w : Fin cfg0.W) (h3 : w ≠ 3) (h4 : w ≠ 4) : (dats m 0 c).q w = fullShare := by
  fin_cases w <;> first | rfl | exact absurd rfl h3 | exact absurd rfl h4

end Cert.Kernel.Hand

end
-- ==== Proof.BitsLaunchShares.lean ====
/-
  How the re-laid adjacency matrix is shared between the two windows that read it.

  The region's six windows sit on five arrays: the two adjacency windows (one per stacked half) read the same re-laid
  array. Entering the region, the core holds every unscoped buffer whole; the windows' arrays are lent to the
  pipeline at the shares the proof data name, and the shared array's full share is cut into its two halves, one per
  window. Leaving the region, no input array has been written, so the two halves are at the same contents and join
  into the full share again; only the output array has changed, to what the write-backs of all the grid points leave.
-/
import proofs.«175795_g70068096467658_cont_9to1_m_110_7_alg».proof.Proof.BitsSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The core's unscoped buffers, one by one -/

/-- All eight unscoped buffers of the core — the four arguments, the two re-laid inputs, the region's output and
    the result — each whole at its contents. -/
theorem unscoped_chain (c : Dev nD) (Vc : (b : Ref sig .tc) → Buf (Elt F) ((c : Thread nD τ).loc b)) :
    (unscopedBufs c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold unscopedBufs
  exact bigSep_eq_bigSepL_of_eq [main_arg0, main_arg1, main_arg2, main_arg3, main_v0, main_v1, main_v2, main_v3] (by decide) (by decide) _

/-- The six windows' arrays, one by one: whole arrays, so each is a plain points-to at the window's share. -/
theorem arrays_chain (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_arg0) ↦{dat.share 0} G 0) ∗ (((c : Thread nD τ).loc main_arg2) ↦{dat.share 1} G 1)
          ∗ (((c : Thread nD τ).loc main_v1) ↦{dat.share 2} G 2) ∗ (((c : Thread nD τ).loc main_v0) ↦{dat.share 3} G 3)
          ∗ (((c : Thread nD τ).loc main_v0) ↦{dat.share 4} G 4) ∗ (((c : Thread nD τ).loc main_v2) ↦{dat.share 5} G 5)) := by
  unfold Dat.arrays
  rw [bigSep_W0]
  simp only [View.set_whole]

section Shares

variable {c : Dev nD} (dat : Dat τ (Elt F) Unit ℕ (UR sig nD τ) ℕ cfg0 c)
  (hq3 : dat.q 3 = fullShare.left) (hq4 : dat.q 4 = fullShare.right)
  (hq : ∀ w : Fin cfg0.W, w ≠ 3 → w ≠ 4 → dat.q w = fullShare)

include hq in
theorem share_0 : dat.share 0 = fullShare := (if_neg (by decide)).trans (hq 0 (by decide) (by decide))
include hq in
theorem share_1 : dat.share 1 = fullShare := (if_neg (by decide)).trans (hq 1 (by decide) (by decide))
include hq in
theorem share_2 : dat.share 2 = fullShare := (if_neg (by decide)).trans (hq 2 (by decide) (by decide))
include hq3 in
theorem share_3 : dat.share 3 = fullShare.left := (if_neg (by decide)).trans hq3
include hq4 in
theorem share_4 : dat.share 4 = fullShare.right := (if_neg (by decide)).trans hq4
theorem share_5 : dat.share 5 = fullShare := if_pos (by decide)

end Shares

/-- The re-laid adjacency's full points-to is the two halves of its share, at the same contents. -/
theorem halve_v0 {c : Dev nD} (f : Buf (Elt F) ((c : Thread nD τ).loc main_v0)) :
    ((((c : Thread nD τ).loc main_v0) ↦{fullShare} f : sProp 𝕄))
      ⊢ iprop((((c : Thread nD τ).loc main_v0) ↦{fullShare.left} f) ∗ (((c : Thread nD τ).loc main_v0) ↦{fullShare.right} f)) :=
  (pointsTo_share (PosShare.mem_left_op_right fullShare)).1

theorem join_v0 {c : Dev nD} (f : Buf (Elt F) ((c : Thread nD τ).loc main_v0)) :
    iprop((((c : Thread nD τ).loc main_v0) ↦{fullShare.left} f) ∗ (((c : Thread nD τ).loc main_v0) ↦{fullShare.right} f))
      ⊢ ((((c : Thread nD τ).loc main_v0) ↦{fullShare} f : sProp 𝕄)) :=
  (pointsTo_share (PosShare.mem_left_op_right fullShare)).2

/-! ## The region's exit contents -/

/-- The buffers when the region is left: the output array as the write-backs of all the points leave it, every
    other buffer as the region found it (the region writes no other unscoped buffer). -/
def Wx (c : Dev nD) (dat : Dat τ (Elt F) Unit ℕ (UR sig nD τ) ℕ cfg0 c) : Valuation τ sig (Elt F) :=
  Function.update (W1 m c) (Proc.devRef .tc main_v2) (dat.arrAt 5 cfg0.N)

theorem Wx_out (c : Dev nD) (dat : Dat τ (Elt F) Unit ℕ (UR sig nD τ) ℕ cfg0 c) :
    Wx m c dat (Proc.devRef .tc main_v2) = dat.arrAt 5 cfg0.N := by
  unfold Wx; exact Function.update_self ..

theorem Wx_of_ne (c : Dev nD) (dat : Dat τ (Elt F) Unit ℕ (UR sig nD τ) ℕ cfg0 c) (b : Ref sig .tc) (hb : b ≠ main_v2) :
    Wx m c dat (Proc.devRef .tc b) = W1 m c (Proc.devRef .tc b) := by
  unfold Wx; exact Function.update_of_ne (StableHlo.devRef_ne_of_ne hb) ..

/-! ## Entering the region: the arrays dealt to the windows -/

section Deal

variable {c : Dev nD} (dat : Dat τ (Elt F) Unit ℕ (UR sig nD τ) ℕ cfg0 c)
  (hA : ∀ w, dat.A w = V m c (Pipeline.arrRef spec0 w))
  (hq3 : dat.q 3 = fullShare.left) (hq4 : dat.q 4 = fullShare.right)
  (hq : ∀ w : Fin cfg0.W, w ≠ 3 → w ≠ 4 → dat.q w = fullShare)

include hA hq3 hq4 hq in
/-- From all eight unscoped buffers at the entry contents: five of them are the windows' arrays — the re-laid
    adjacency is cut into the two halves of its full share, one for each of the two windows on it — and the
    other three bypass the region. -/
theorem entry_sort :
    (StableHlo.held (c : Thread nD τ) (Pipeline.ucRefs τ sig) (W1 m c) : sProp 𝕄)
      ⊢ iprop(dat.arrays (dat.arrAt · 0) ∗ Pipeline.unscopedRest spec0 c (V m c)) := by
  rw [← Pipeline.unscopedBufs_held c (W1 m c), unscoped_chain, arrays_chain, unscopedRest0_eq,
    share_0 dat hq, share_1 dat hq, share_2 dat hq, share_3 dat hq3, share_4 dat hq4, share_5 dat]
  rw [show dat.arrAt 0 0 = V m c main_arg0 from hA 0, show dat.arrAt 1 0 = V m c main_arg2 from hA 1,
    show dat.arrAt 2 0 = V m c main_v1 from hA 2, show dat.arrAt 3 0 = V m c main_v0 from hA 3,
    show dat.arrAt 4 0 = V m c main_v0 from hA 4, show dat.arrAt 5 0 = V m c main_v2 from hA 5]
  iintro ⟨Ha0, Ha1, Ha2, Ha3, Hv0, Hv1, Hv2, Hv3⟩
  ihave Hhalves := (halve_v0 (V m c main_v0)) $$ Hv0
  icases Hhalves with ⟨Hleft, Hright⟩
  isplitr [Ha1 Ha3 Hv3]
  · isplitl [Ha0]; · iexact Ha0
    isplitl [Ha2]; · iexact Ha2
    isplitl [Hv1]; · iexact Hv1
    isplitl [Hleft]; · iexact Hleft
    isplitl [Hright]; · iexact Hright
    iexact Hv2
  · isplitl [Ha1]; · iexact Ha1
    isplitl [Ha3]; · iexact Ha3
    iexact Hv3

include hA hq3 hq4 hq in
/-- Leaving the region: the input arrays come back as they were lent (no write-back touches an input), so the two
    halves of the re-laid adjacency join into its full share again; with the output array at what the write-backs
    left and the three bypassing buffers, these are all eight unscoped buffers at the exit contents. -/
theorem exit_sort :
    iprop(dat.arrays (dat.arrAt · cfg0.N) ∗ Pipeline.unscopedRest spec0 c (V m c))
      ⊢ (StableHlo.held (c : Thread nD τ) (Pipeline.ucRefs τ sig) (Wx m c dat) : sProp 𝕄) := by
  rw [← Pipeline.unscopedBufs_held c (Wx m c dat), unscoped_chain, arrays_chain, unscopedRest0_eq,
    share_0 dat hq, share_1 dat hq, share_2 dat hq, share_3 dat hq3, share_4 dat hq4, share_5 dat]
  rw [(dat.arrAt_in 0 rfl cfg0.N).trans (hA 0), (dat.arrAt_in 1 rfl cfg0.N).trans (hA 1), (dat.arrAt_in 2 rfl cfg0.N).trans (hA 2),
    (dat.arrAt_in 3 rfl cfg0.N).trans (hA 3), (dat.arrAt_in 4 rfl cfg0.N).trans (hA 4),
    Wx_out, Wx_of_ne m c dat main_arg0 (by decide), Wx_of_ne m c dat main_arg1 (by decide), Wx_of_ne m c dat main_arg2 (by decide),
    Wx_of_ne m c dat main_arg3 (by decide), Wx_of_ne m c dat main_v0 (by decide), Wx_of_ne m c dat main_v1 (by decide),
    Wx_of_ne m c dat main_v3 (by decide)]
  iintro ⟨⟨Ha0, Ha2, Hv1, Hleft, Hright, Hv2⟩, Ha1, Ha3, Hv3⟩
  ihave Hv0 := (join_v0 (V m c main_v0)) $$ [Hleft Hright]
  · isplitl [Hleft] <;> iassumption
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  iexact Hv3

end Deal

end Cert.Kernel.Hand

end
-- ==== Proof.BitsLaunch.lean ====
/-
  The launch: the whole run of @main from any proof data of its one pipelined region.

  @main is three segments: two re-layings of arguments (the adjacency as two stacked halves, the bias as a one-row
  matrix), the pipelined region over 25 grid points, and one re-laying of the region's output into the result. The
  thread state between segments is "every unscoped buffer of the core whole at known contents, the generator
  register at some state, nothing owed"; the contents are followed segment by segment from the launch memory. Two
  windows of the region read the same array, so at the region's entry that array's full share is cut in two (and
  joined again at the exit). The conclusion reads the last thread state against the final memory: the result
  buffer holds the re-laid output array, and the four arguments, which nothing writes, hold what they were launched
  with.
-/
import proofs.«175795_g70068096467658_cont_9to1_m_110_7_alg».proof.Proof.BitsLaunchShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The proof data and the thread states between @main's segments -/

/-- No pipeline has a prefetched table. -/
abbrev adm : (p : Fin 1) → (pcfgs (F := F) p).Adm := fun p => (cfgs p).toPCfg_adm

section Run

variable (dats : (p : Fin 1) → (c : Dev nD) → Dat τ (Elt F) Unit ℕ (UR sig nD τ) ℕ (cfgs p) c)

/-- The one pipeline's proof data, under the name the launch theorem reads them by. -/
def pdats : (p : Fin 1) → (c : Dev nD) → Dat τ (Elt F) Unit ℕ (UR sig nD τ) ℕ (Pipeline.pin (pcfgs (F := F)) adm p) c
  | ⟨0, _⟩ => fun c => dats 0 c

/-- No core waits for another: no level is ever assigned. -/
abbrev noLv : GSem nD τ sig → Finset Unit := fun _ => ∅
abbrev lv0 : GSem nD τ sig → Unit → ℕ := fun _ _ => 0

/-- Beside the buffers, up to the region: the generator register at some state, and the core owing nothing with
    nothing recorded. -/
abbrev Rpre (c : Dev nD) : sProp 𝕄 := iprop((∃ r, prngReg c r) ∗ owes (c : Thread nD τ) (0 : CellTallies nD τ sig Unit) ∅)
/-- From the region on: the same, whatever the region's waits recorded. -/
abbrev Rpost (c : Dev nD) : sProp 𝕄 := iprop((∃ r, prngReg c r) ∗ ∃ Wr, owes (c : Thread nD τ) (0 : CellTallies nD τ sig Unit) Wr)

/-- The buffers at the return: the region's exit contents after the last re-laying. -/
abbrev Wend (c : Dev nD) : Valuation τ sig (Elt F) := StableHlo.after hostOps1 (Wx m c (dats 0 c))

/-! ## The two stretches of re-layings as segments -/

theorem hostOps0_noalloc : ∀ op ∈ (hostOps0 : List (HloOp τ sig (Elt F))), op.fresh = ∅ := by
  intro op hop
  simp only [hostOps0, List.mem_cons, List.not_mem_nil, or_false] at hop
  rcases hop with rfl | rfl <;> rfl

theorem hostOps1_noalloc : ∀ op ∈ (hostOps1 : List (HloOp τ sig (Elt F))), op.fresh = ∅ := by
  intro op hop
  simp only [hostOps1, List.mem_cons, List.not_mem_nil, or_false] at hop
  rcases hop with rfl
  rfl

/-- The two re-layings before the region, run over all the unscoped buffers from the launch contents. -/
abbrev segBefore : HostSeg (Name := ℕ) (U := UR sig nD τ) (pcfgs (F := F)) defs₀ Variants.none noLv lv0 :=
  HostSeg.ofOps _ _ _ _ _ (Pipeline.ucRefs τ sig) hostOps0
    (fun op h => Pipeline.sub_ucRefs op ((List.forall_iff_forall_mem.mp hostOps0_sub) op h)) hostOps0_noalloc (W0 m) Rpre

/-- The re-laying after the region, from the region's exit contents. -/
abbrev segAfter : HostSeg (Name := ℕ) (U := UR sig nD τ) (pcfgs (F := F)) defs₀ Variants.none noLv lv0 :=
  HostSeg.ofOps _ _ _ _ _ (Pipeline.ucRefs τ sig) hostOps1
    (fun op h => Pipeline.sub_ucRefs op ((List.forall_iff_forall_mem.mp hostOps1_sub) op h)) hostOps1_noalloc
    (fun c => Wx m c (dats 0 c)) Rpost

/-! ## The region as a segment -/

section Region

variable (hA : ∀ c w, (dats 0 c).A w = V m c (Pipeline.arrRef spec0 w))
  (hq3 : ∀ c, (dats 0 c).q 3 = fullShare.left) (hq4 : ∀ c, (dats 0 c).q 4 = fullShare.right)
  (hq : ∀ c (w : Fin cfg0.W), w ≠ 3 → w ≠ 4 → (dats 0 c).q w = fullShare)
  (howed : ∀ c t, (dats 0 c).owed t = 0)
  (hbody : ∀ c, Pipeline.BodyObligationLoose (dats 0 c) defs₀ Variants.none () Set.univ)
  (hin : ∀ c, Pipeline.ΦA spec0 c ⊢ (dats 0 c).Φ 0)
  (hout : ∀ c, (dats 0 c).Φ (Fin.last cfg0.N) ⊢ Pipeline.ΦA spec0 c)

-- the library's entailments are stated over the pinned configuration, which is this kernel's only after unfolding
-- plain definitions inside types
set_option backward.isDefEq.respectTransparency.types false in
/-- The pipelined region between the two stretches. It is entered holding every unscoped buffer at the entry
    contents and left holding them at the exit contents. Going in, the windows' arrays are sorted out of the
    buffers (the shared array's share cut in two), the generator register goes to the kernel's invariant, the
    three buffers no window reads bypass the region; coming out, the converse. The kernel has no semaphore of its
    own and owes nothing at any point. -/
def regionSeg : RegionSeg (pcfgs (F := F)) adm (pdats dats) () defs₀ Variants.none noLv lv0 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ noLv lv0 0 howed
  pre c := iprop(StableHlo.held (c : Thread nD τ) (Pipeline.ucRefs τ sig) (W1 m c) ∗ Rpre c)
  post c := iprop(StableHlo.held (c : Thread nD τ) (Pipeline.ucRefs τ sig) (Wx m c (dats 0 c)) ∗ Rpost c)
  X c := iprop(∃ r, prngReg c r)
  Y c := iprop(∃ r, prngReg c r)
  Z c := Pipeline.unscopedRest (Ix := Unit) (Name := ℕ) (U := UR sig nD τ) (Lvl := ℕ) spec0 c (V m c)
  hentry c := by
    have hsort := entry_sort m (dats 0 c) (hA c) (hq3 c) (hq4 c) (hq c)
    iintro ⟨⟨Hbufs, Hreg, Hnone⟩, -, -⟩
    ihave Hsorted := hsort $$ Hbufs
    icases Hsorted with ⟨Harrs, Hbypass⟩
    imodintro
    isplitl [Harrs]; · iexact Harrs
    isplitr
    · unfold Pipeline.prefHeld
      rw [show (Finset.univ : Finset (Fin 0)) = ∅ from rfl, BI.bigSep_empty]
      iempintro
    isplitl [Hnone]
    · unfold Pipeline.Dat.owesAt Pipeline.owesWithin
      iexists ∅
      isplitr
      · ipureintro; intro x hx; exact absurd hx (Finset.notMem_empty x)
      rw [show (pdats dats 0 c).owed 0 = 0 from howed c 0]
      iexact Hnone
    isplitl [Hreg]; · iexact Hreg
    iexact Hbypass
  hin c := by
    refine BIBase.Entails.trans ?_ (hin c)
    unfold Pipeline.ΦA
    iintro ⟨Hreg, -, Hscoped⟩
    isplitl [Hscoped]; · iexact Hscoped
    iexact Hreg
  hout c := by
    refine (hout c).trans ?_
    rw [Pipeline.ownSems0_none]; unfold Pipeline.ΦA
    iintro ⟨Hscoped, Hreg⟩
    isplitl [Hreg]; · iexact Hreg
    isplitr; · iempintro
    iexact Hscoped
  hexit c := by
    have hsort := exit_sort m (dats 0 c) (hA c) (hq3 c) (hq4 c) (hq c)
    iintro ⟨Harrs, Howes, Hreg, Hbypass⟩
    imodintro
    isplitl [Harrs Hbypass]
    · iapply hsort
      isplitl [Harrs]; · iexact Harrs
      iexact Hbypass
    isplitl [Hreg]; · iexact Hreg
    unfold Pipeline.Dat.owesAt Pipeline.owesWithin
    rw [show (pdats dats 0 c).owed (Fin.last _) = 0 from howed c _]
    icases Howes with ⟨%Wr, -, Howes⟩
    iexists Wr; iexact Howes

end Region

/-! ## What the buffers hold at the return -/

/-- The result buffer's final contents: the output array, two stacked halves of 5000 rows, re-laid as one matrix
    of 10000 rows — the last re-laying's function of the output array after all 25 write-backs. -/
def resultOf {c : Dev nD} (out : Buf (Elt F) ((c : Thread nD τ).loc main_v2)) : Buf (Elt F) ((c : Thread nD τ).loc main_v3) :=
  fun i => shapeCast S10000x128 out shapeCasts_S2x5000x128_S10000x128 i

theorem Wend_result (c : Dev nD) :
    Wend m dats c (Proc.devRef .tc main_v3) = resultOf ((dats 0 c).arrAt 5 cfg0.N) := by
  simp only [hostOps1, StableHlo.after_cons, StableHlo.after_nil]
  rw [StableHlo.reshape_result', Wx_out]
  rfl

/-- The first stretch writes the two re-laid inputs only, -/
theorem writes_before : (hostOps0 : List (HloOp τ sig (Elt F))).Forall fun op =>
    op.writes ⊆ ([main_v0, main_v1].map (Proc.devRef (τ := τ) .tc)).toFinset := by
  simp [List.Forall]
/-- and the last the result only. -/
theorem writes_after : (hostOps1 : List (HloOp τ sig (Elt F))).Forall fun op =>
    op.writes ⊆ ([main_v3].map (Proc.devRef (τ := τ) .tc)).toFinset := by
  simp [List.Forall]

/-- A buffer that neither stretch writes and that is not the region's output ends as launched: walk back from the
    return through the last re-laying, the region's exit, and the first two re-layings. -/
theorem Wend_of_untouched (c : Dev nD) (b : Ref sig .tc) (h0 : b ∉ [main_v0, main_v1]) (h2 : b ≠ main_v2) (h3 : b ∉ [main_v3]) :
    Wend m dats c (Proc.devRef .tc b) = m ((c : Thread nD τ).loc b) :=
  calc Wend m dats c (Proc.devRef .tc b)
      = Wx m c (dats 0 c) (Proc.devRef .tc b) := StableHlo.after_of_writes_sub hostOps1 _ writes_after h3
    _ = W1 m c (Proc.devRef .tc b) := Wx_of_ne m c (dats 0 c) b h2
    _ = W0 m c (Proc.devRef .tc b) := StableHlo.after_of_writes_sub hostOps0 _ writes_before h0
    _ = m ((c : Thread nD τ).loc b) := rfl

/-- An unscoped buffer of the TensorCore is among those the thread states hold. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## @main as its three segments, and the launch -/

section Launch

variable (hA : ∀ c w, (dats 0 c).A w = V m c (Pipeline.arrRef spec0 w))
  (hq3 : ∀ c, (dats 0 c).q 3 = fullShare.left) (hq4 : ∀ c, (dats 0 c).q 4 = fullShare.right)
  (hq : ∀ c (w : Fin cfg0.W), w ≠ 3 → w ≠ 4 → (dats 0 c).q w = fullShare)
  (howed : ∀ c t, (dats 0 c).owed t = 0)
  (hbody : ∀ c, Pipeline.BodyObligationLoose (dats 0 c) defs₀ Variants.none () Set.univ)
  (hin : ∀ c, Pipeline.ΦA spec0 c ⊢ (dats 0 c).Φ 0)
  (hout : ∀ c, (dats 0 c).Φ (Fin.last cfg0.N) ⊢ Pipeline.ΦA spec0 c)

/-- At the return the thread state is regrouped: the buffers and the generator register on one side, the core owing
    nothing on the other. -/
theorem end_state (c : Dev nD) :
    (iprop(StableHlo.held (c : Thread nD τ) (Pipeline.ucRefs τ sig) (Wend m dats c) ∗ Rpost c) : sProp 𝕄)
      ⊢ iprop((StableHlo.held (c : Thread nD τ) (Pipeline.ucRefs τ sig) (Wend m dats c) ∗ ∃ r, prngReg c r)
          ∗ ∃ Wr, owes (c : Thread nD τ) (0 : CellTallies nD τ sig Unit) Wr) := by
  iintro ⟨Hbufs, Hreg, Howes⟩
  isplitr [Howes]
  · isplitl [Hbufs]; · iexact Hbufs
    iexact Hreg
  · iexact Howes

/-- The re-layings before the region, the region, the re-laying after it. -/
abbrev segs : List (Seg (pcfgs (F := F)) adm (pdats dats) () defs₀ Variants.none noLv lv0) :=
  [.host (segBefore m), .region (regionSeg m dats hA hq3 hq4 hq howed hbody hin hout), .host (segAfter m dats)]

/-- @main is the run of these three segments. -/
theorem main_eq_segs (c : Dev nD) : main (F := F) c = Seg.run (segs m dats hA hq3 hq4 hq howed hbody hin hout) :=
  main_segs adm (pdats dats) () Variants.none noLv lv0 (segBefore m) (segAfter m dats)
    (regionSeg m dats hA hq3 hq4 hq howed hbody hin hout) rfl rfl c

-- the launch theorem's implicit arguments are found by unifying its conclusion with this one, which takes unfolding
-- plain definitions inside types
include hA hq3 hq4 hq howed hbody hin hout in
set_option backward.isDefEq.respectTransparency.types false in
/-- THE LAUNCH. From any memory with every counter at zero, for any proof data of the one pipeline that read the
    windows' arrays off the region's entry contents, lend the shared adjacency array in two halves, owe nothing,
    satisfy the body obligation and carry the kernel's invariant from and to the scratch and the generator
    register: every weakly fair execution of @main on the TensorCores terminates without fault, the result buffer
    ends holding the re-laid output array as the 25 write-backs leave it, and the four arguments end as launched. -/
theorem run_of :
    θ_run defs (onTc (τ := τ) (main (F := F))) ⟨m, fun _ => 0, ρ⟩ (fun r => ∀ c : Dev nD,
      r.2.mem ((c.tc : Thread nD τ).loc main_v3) = resultOf ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dats) () cellOf_inj emb₁ defs₀ Variants.none noLv lv0 m ρ main
    (segs m dats hA hq3 hq4 hq howed hbody hin hout)
    (fun c Q => by rw [main_eq_segs m dats hA hq3 hq4 hq howed hbody hin hout c])
    (List.nodup_singleton _)
    (O₀ := 0) (hL := fun _ _ => rfl) (G := fun _ => iprop(emp))
    (u₀ := initOf (Pipeline.cells cfgs cellOf_inj) (Pipeline.launchToks cfgs cellOf_inj))
    (hu₀ := by
      have hnone : (BI.emp : sProp 𝕄) ⊢ bigSep Finset.univ (fun _ : Dev nD => (BI.emp : sProp 𝕄)) := by
        rw [BI.bigSep_emp_const]
      have hlaunch : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hlaunch
      imodintro
      isplitl [Hlaunch]
      · iapply hlaunch; iexact Hlaunch
      · iapply hnone; iempintro)
    (T₀ := fun c => iprop(StableHlo.held (c : Thread nD τ) (Pipeline.ucRefs τ sig) (W0 m c) ∗ Rpre c))
    (Tₙ := fun c => iprop(StableHlo.held (c : Thread nD τ) (Pipeline.ucRefs τ sig) (Wend m dats c) ∗ ∃ r, prngReg c r))
    (hch := ⟨fun _ => .rfl, fun _ => .rfl, fun _ => .rfl, fun c => end_state m dats c⟩)
    (hinit := by
      refine Pipeline.initEach noLv lv0 fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hnone, -, Hreg, -⟩, -⟩
      imodintro
      isplitl [Hbufs]; · iexact Hbufs
      isplitl [Hreg]; · iexists _; iexact Hreg
      iexact Hnone)
    (QY := fun c s => ∀ b ∈ Pipeline.ucRefs τ sig, s.mem (((c : Thread nD τ)).1, b) = Wend m dats c b)
    (hfin := fun c s' => by
      iintro ⟨⟨Hbufs, -⟩, Hstate⟩
      unfold StableHlo.held
      imodintro
      iapply (pointsTo_read_all (Pipeline.ucRefs τ sig) (fun b => (((c : Thread nD τ)).1, b)) (Wend m dats c) s')
      isplitl [Hbufs]; · iexact Hbufs
      iexact Hstate)
    (hQ := fun s h c =>
      ⟨(h c _ (mem_unscoped main_v3 (by decide))).trans (Wend_result m dats c),
       (h c _ (mem_unscoped main_arg0 (by decide))).trans (Wend_of_untouched m dats c main_arg0 (by decide) (by decide) (by decide)),
       (h c _ (mem_unscoped main_arg1 (by decide))).trans (Wend_of_untouched m dats c main_arg1 (by decide) (by decide) (by decide)),
       (h c _ (mem_unscoped main_arg2 (by decide))).trans (Wend_of_untouched m dats c main_arg2 (by decide) (by decide) (by decide)),
       (h c _ (mem_unscoped main_arg3 (by decide))).trans (Wend_of_untouched m dats c main_arg3 (by decide) (by decide) (by decide))⟩)

end Launch

end Run

end Cert.Kernel.Hand

end
-- ==== Proof.IdealSetup.lean ====
/-
  The graph-convolution kernel's one region, as its grid points see it.

  The region is entered after two re-layings of arguments (the adjacency as two stacked halves, the bias as a one-row
  matrix). Six windows: the node features, the weight and the bias (whole arrays, fetched once), the two halves of
  the adjacency (one block of 200 rows each per point, both windows on the SAME re-laid array), and the output
  (two blocks of 200 rows per point). A scratch buffer holds the support matrix x·w: the first point fills it,
  every later point reads it.
-/
import proofs.«175795_g70068096467658_cont_9to1_m_110_7_alg».proof.Proof.Gen.KernelIdeal.Launch
import proofs.«175795_g70068096467658_cont_9to1_m_110_7_alg».proof.Proof.Gen.KernelIdeal.Skeleton
import proofs.«175795_g70068096467658_cont_9to1_m_110_7_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch. -/
abbrev W0 (c : Dev nD) : Valuation τ sig (Elt F) := fun b => m (c, b)
/-- After the two re-layings before the region. -/
abbrev W1 (c : Dev nD) : Valuation τ sig (Elt F) := StableHlo.after hostOps0 (W0 m c)
/-- The same read at a TensorCore reference: what the region finds. -/
abbrev V (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input window's staging buffer holds its block at every point, fetched there or not -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: "is this the first point?" -/

/-- The branch's condition, from the grid coordinate. -/
abbrev isFirst (i : grid0.Coords) : Prop := (Scalar.cmpi .ne (Scalar.extui (Scalar.cmpi .eq (BitVec.ofNat 32 (i 0).val) 0#32)) 0#32) = 1#1
/-- It holds at point 0 and at no other of the 25. -/
theorem isFirst_iff : ∀ t : Fin cfg0.N, isFirst (grid0.coords t) ↔ t.val % 25 = 0 :=
  (by decide +kernel : ∀ t : Fin grid0.N, isFirst (grid0.coords t) ↔ t.val % 25 = 0)

/-- No window is idle anywhere. -/
theorem live_all : ∀ (w : Fin cfg0.W) (t : Fin cfg0.N), cfg0.idle w (grid0.coords t) = false := by decide +kernel

/-! ## The staging memrefs at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x200x128 .f32 := win0_5.stage (cfg0.slots t 5)
abbrev hs5 (t : Fin cfg0.N) : (ms5 t).IsWhole := hstage0_5 ((cfg0.slots t 5).cast nbuf0_5)
/-- The scratch holding the support matrix, whole. -/
abbrev scM : Memref sig .tc .vmem S10000x128 .bf16 := Memref.whole cc0_scratch0
abbrev VS : View sig .tc .vmem S10000x128 .bf16 := scM.view
/-- One staging buffer of the output window, through which its contents are stated. -/
abbrev VO : View sig .tc .vmem S2x200x128 .f32 := (Memref.whole cc0_stg5_0 : Memref sig .tc .vmem S2x200x128 .f32).view

/-- What the region lends the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.IdealLaunchShares.lean ====
/-
  How the re-laid adjacency matrix is shared between the two windows that read it.

  The region's six windows sit on five arrays: the two adjacency windows (one per stacked half) read the same re-laid
  array. Entering the region, the core holds every unscoped buffer whole; the windows' arrays are lent to the
  pipeline at the shares the proof data name, and the shared array's full share is cut into its two halves, one per
  window. Leaving the region, no input array has been written, so the two halves are at the same contents and join
  into the full share again; only the output array has changed, to what the write-backs of all the grid points leave.
-/
import proofs.«175795_g70068096467658_cont_9to1_m_110_7_alg».proof.Proof.IdealSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The core's unscoped buffers, one by one -/

/-- All eight unscoped buffers of the core — the four arguments, the two re-laid inputs, the region's output and
    the result — each whole at its contents. -/
theorem unscoped_chain (c : Dev nD) (Vc : (b : Ref sig .tc) → Buf (Elt F) ((c : Thread nD τ).loc b)) :
    (unscopedBufs c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold unscopedBufs
  exact bigSep_eq_bigSepL_of_eq [main_arg0, main_arg1, main_arg2, main_arg3, main_v0, main_v1, main_v2, main_v3] (by decide) (by decide) _

/-- The six windows' arrays, one by one: whole arrays, so each is a plain points-to at the window's share. -/
theorem arrays_chain (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_arg0) ↦{dat.share 0} G 0) ∗ (((c : Thread nD τ).loc main_arg2) ↦{dat.share 1} G 1)
          ∗ (((c : Thread nD τ).loc main_v1) ↦{dat.share 2} G 2) ∗ (((c : Thread nD τ).loc main_v0) ↦{dat.share 3} G 3)
          ∗ (((c : Thread nD τ).loc main_v0) ↦{dat.share 4} G 4) ∗ (((c : Thread nD τ).loc main_v2) ↦{dat.share 5} G 5)) := by
  unfold Dat.arrays
  rw [bigSep_W0]
  simp only [View.set_whole]

section Shares

variable {c : Dev nD} (dat : Dat τ (Elt F) Unit ℕ (UR sig nD τ) ℕ cfg0 c)
  (hq3 : dat.q 3 = fullShare.left) (hq4 : dat.q 4 = fullShare.right)
  (hq : ∀ w : Fin cfg0.W, w ≠ 3 → w ≠ 4 → dat.q w = fullShare)

include hq in
theorem share_0 : dat.share 0 = fullShare := (if_neg (by decide)).trans (hq 0 (by decide) (by decide))
include hq in
theorem share_1 : dat.share 1 = fullShare := (if_neg (by decide)).trans (hq 1 (by decide) (by decide))
include hq in
theorem share_2 : dat.share 2 = fullShare := (if_neg (by decide)).trans (hq 2 (by decide) (by decide))
include hq3 in
theorem share_3 : dat.share 3 = fullShare.left := (if_neg (by decide)).trans hq3
include hq4 in
theorem share_4 : dat.share 4 = fullShare.right := (if_neg (by decide)).trans hq4
theorem share_5 : dat.share 5 = fullShare := if_pos (by decide)

end Shares

/-- The re-laid adjacency's full points-to is the two halves of its share, at the same contents. -/
theorem halve_v0 {c : Dev nD} (f : Buf (Elt F) ((c : Thread nD τ).loc main_v0)) :
    ((((c : Thread nD τ).loc main_v0) ↦{fullShare} f : sProp 𝕄))
      ⊢ iprop((((c : Thread nD τ).loc main_v0) ↦{fullShare.left} f) ∗ (((c : Thread nD τ).loc main_v0) ↦{fullShare.right} f)) :=
  (pointsTo_share (PosShare.mem_left_op_right fullShare)).1

theorem join_v0 {c : Dev nD} (f : Buf (Elt F) ((c : Thread nD τ).loc main_v0)) :
    iprop((((c : Thread nD τ).loc main_v0) ↦{fullShare.left} f) ∗ (((c : Thread nD τ).loc main_v0) ↦{fullShare.right} f))
      ⊢ ((((c : Thread nD τ).loc main_v0) ↦{fullShare} f : sProp 𝕄)) :=
  (pointsTo_share (PosShare.mem_left_op_right fullShare)).2

/-! ## The region's exit contents -/

/-- The buffers when the region is left: the output array as the write-backs of all the points leave it, every
    other buffer as the region found it (the region writes no other unscoped buffer). -/
def Wx (c : Dev nD) (dat : Dat τ (Elt F) Unit ℕ (UR sig nD τ) ℕ cfg0 c) : Valuation τ sig (Elt F) :=
  Function.update (W1 m c) (Proc.devRef .tc main_v2) (dat.arrAt 5 cfg0.N)

theorem Wx_out (c : Dev nD) (dat : Dat τ (Elt F) Unit ℕ (UR sig nD τ) ℕ cfg0 c) :
    Wx m c dat (Proc.devRef .tc main_v2) = dat.arrAt 5 cfg0.N := by
  unfold Wx; exact Function.update_self ..

theorem Wx_of_ne (c : Dev nD) (dat : Dat τ (Elt F) Unit ℕ (UR sig nD τ) ℕ cfg0 c) (b : Ref sig .tc) (hb : b ≠ main_v2) :
    Wx m c dat (Proc.devRef .tc b) = W1 m c (Proc.devRef .tc b) := by
  unfold Wx; exact Function.update_of_ne (StableHlo.devRef_ne_of_ne hb) ..

/-! ## Entering the region: the arrays dealt to the windows -/

section Deal

variable {c : Dev nD} (dat : Dat τ (Elt F) Unit ℕ (UR sig nD τ) ℕ cfg0 c)
  (hA : ∀ w, dat.A w = V m c (Pipeline.arrRef spec0 w))
  (hq3 : dat.q 3 = fullShare.left) (hq4 : dat.q 4 = fullShare.right)
  (hq : ∀ w : Fin cfg0.W, w ≠ 3 → w ≠ 4 → dat.q w = fullShare)

include hA hq3 hq4 hq in
/-- From all eight unscoped buffers at the entry contents: five of them are the windows' arrays — the re-laid
    adjacency is cut into the two halves of its full share, one for each of the two windows on it — and the
    other three bypass the region. -/
theorem entry_sort :
    (StableHlo.held (c : Thread nD τ) (Pipeline.ucRefs τ sig) (W1 m c) : sProp 𝕄)
      ⊢ iprop(dat.arrays (dat.arrAt · 0) ∗ Pipeline.unscopedRest spec0 c (V m c)) := by
  rw [← Pipeline.unscopedBufs_held c (W1 m c), unscoped_chain, arrays_chain, unscopedRest0_eq,
    share_0 dat hq, share_1 dat hq, share_2 dat hq, share_3 dat hq3, share_4 dat hq4, share_5 dat]
  rw [show dat.arrAt 0 0 = V m c main_arg0 from hA 0, show dat.arrAt 1 0 = V m c main_arg2 from hA 1,
    show dat.arrAt 2 0 = V m c main_v1 from hA 2, show dat.arrAt 3 0 = V m c main_v0 from hA 3,
    show dat.arrAt 4 0 = V m c main_v0 from hA 4, show dat.arrAt 5 0 = V m c main_v2 from hA 5]
  iintro ⟨Ha0, Ha1, Ha2, Ha3, Hv0, Hv1, Hv2, Hv3⟩
  ihave Hhalves := (halve_v0 (V m c main_v0)) $$ Hv0
  icases Hhalves with ⟨Hleft, Hright⟩
  isplitr [Ha1 Ha3 Hv3]
  · isplitl [Ha0]; · iexact Ha0
    isplitl [Ha2]; · iexact Ha2
    isplitl [Hv1]; · iexact Hv1
    isplitl [Hleft]; · iexact Hleft
    isplitl [Hright]; · iexact Hright
    iexact Hv2
  · isplitl [Ha1]; · iexact Ha1
    isplitl [Ha3]; · iexact Ha3
    iexact Hv3

include hA hq3 hq4 hq in
/-- Leaving the region: the input arrays come back as they were lent (no write-back touches an input), so the two
    halves of the re-laid adjacency join into its full share again; with the output array at what the write-backs
    left and the three bypassing buffers, these are all eight unscoped buffers at the exit contents. -/
theorem exit_sort :
    iprop(dat.arrays (dat.arrAt · cfg0.N) ∗ Pipeline.unscopedRest spec0 c (V m c))
      ⊢ (StableHlo.held (c : Thread nD τ) (Pipeline.ucRefs τ sig) (Wx m c dat) : sProp 𝕄) := by
  rw [← Pipeline.unscopedBufs_held c (Wx m c dat), unscoped_chain, arrays_chain, unscopedRest0_eq,
    share_0 dat hq, share_1 dat hq, share_2 dat hq, share_3 dat hq3, share_4 dat hq4, share_5 dat]
  rw [(dat.arrAt_in 0 rfl cfg0.N).trans (hA 0), (dat.arrAt_in 1 rfl cfg0.N).trans (hA 1), (dat.arrAt_in 2 rfl cfg0.N).trans (hA 2),
    (dat.arrAt_in 3 rfl cfg0.N).trans (hA 3), (dat.arrAt_in 4 rfl cfg0.N).trans (hA 4),
    Wx_out, Wx_of_ne m c dat main_arg0 (by decide), Wx_of_ne m c dat main_arg1 (by decide), Wx_of_ne m c dat main_arg2 (by decide),
    Wx_of_ne m c dat main_arg3 (by decide), Wx_of_ne m c dat main_v0 (by decide), Wx_of_ne m c dat main_v1 (by decide),
    Wx_of_ne m c dat main_v3 (by decide)]
  iintro ⟨⟨Ha0, Ha2, Hv1, Hleft, Hright, Hv2⟩, Ha1, Ha3, Hv3⟩
  ihave Hv0 := (join_v0 (V m c main_v0)) $$ [Hleft Hright]
  · isplitl [Hleft] <;> iassumption
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  iexact Hv3

end Deal

end Cert.KernelIdeal.Hand

end
-- ==== Proof.IdealLaunch.lean ====
/-
  The launch: the whole run of @main from any proof data of its one pipelined region.

  @main is three segments: two re-layings of arguments (the adjacency as two stacked halves, the bias as a one-row
  matrix), the pipelined region over 25 grid points, and one re-laying of the region's output into the result. The
  thread state between segments is "every unscoped buffer of the core whole at known contents, the generator
  register at some state, nothing owed"; the contents are followed segment by segment from the launch memory. Two
  windows of the region read the same array, so at the region's entry that array's full share is cut in two (and
  joined again at the exit). The conclusion reads the last thread state against the final memory: the result
  buffer holds the re-laid output array, and the four arguments, which nothing writes, hold what they were launched
  with.
-/
import proofs.«175795_g70068096467658_cont_9to1_m_110_7_alg».proof.Proof.IdealLaunchShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The proof data and the thread states between @main's segments -/

/-- No pipeline has a prefetched table. -/
abbrev adm : (p : Fin 1) → (pcfgs (F := F) p).Adm := fun p => (cfgs p).toPCfg_adm

section Run

variable (dats : (p : Fin 1) → (c : Dev nD) → Dat τ (Elt F) Unit ℕ (UR sig nD τ) ℕ (cfgs p) c)

/-- The one pipeline's proof data, under the name the launch theorem reads them by. -/
def pdats : (p : Fin 1) → (c : Dev nD) → Dat τ (Elt F) Unit ℕ (UR sig nD τ) ℕ (Pipeline.pin (pcfgs (F := F)) adm p) c
  | ⟨0, _⟩ => fun c => dats 0 c

/-- No core waits for another: no level is ever assigned. -/
abbrev noLv : GSem nD τ sig → Finset Unit := fun _ => ∅
abbrev lv0 : GSem nD τ sig → Unit → ℕ := fun _ _ => 0

/-- Beside the buffers, up to the region: the generator register at some state, and the core owing nothing with
    nothing recorded. -/
abbrev Rpre (c : Dev nD) : sProp 𝕄 := iprop((∃ r, prngReg c r) ∗ owes (c : Thread nD τ) (0 : CellTallies nD τ sig Unit) ∅)
/-- From the region on: the same, whatever the region's waits recorded. -/
abbrev Rpost (c : Dev nD) : sProp 𝕄 := iprop((∃ r, prngReg c r) ∗ ∃ Wr, owes (c : Thread nD τ) (0 : CellTallies nD τ sig Unit) Wr)

/-- The buffers at the return: the region's exit contents after the last re-laying. -/
abbrev Wend (c : Dev nD) : Valuation τ sig (Elt F) := StableHlo.after hostOps1 (Wx m c (dats 0 c))

/-! ## The two stretches of re-layings as segments -/

theorem hostOps0_noalloc : ∀ op ∈ (hostOps0 : List (HloOp τ sig (Elt F))), op.fresh = ∅ := by
  intro op hop
  simp only [hostOps0, List.mem_cons, List.not_mem_nil, or_false] at hop
  rcases hop with rfl | rfl <;> rfl

theorem hostOps1_noalloc : ∀ op ∈ (hostOps1 : List (HloOp τ sig (Elt F))), op.fresh = ∅ := by
  intro op hop
  simp only [hostOps1, List.mem_cons, List.not_mem_nil, or_false] at hop
  rcases hop with rfl
  rfl

/-- The two re-layings before the region, run over all the unscoped buffers from the launch contents. -/
abbrev segBefore : HostSeg (Name := ℕ) (U := UR sig nD τ) (pcfgs (F := F)) defs₀ Variants.none noLv lv0 :=
  HostSeg.ofOps _ _ _ _ _ (Pipeline.ucRefs τ sig) hostOps0
    (fun op h => Pipeline.sub_ucRefs op ((List.forall_iff_forall_mem.mp hostOps0_sub) op h)) hostOps0_noalloc (W0 m) Rpre

/-- The re-laying after the region, from the region's exit contents. -/
abbrev segAfter : HostSeg (Name := ℕ) (U := UR sig nD τ) (pcfgs (F := F)) defs₀ Variants.none noLv lv0 :=
  HostSeg.ofOps _ _ _ _ _ (Pipeline.ucRefs τ sig) hostOps1
    (fun op h => Pipeline.sub_ucRefs op ((List.forall_iff_forall_mem.mp hostOps1_sub) op h)) hostOps1_noalloc
    (fun c => Wx m c (dats 0 c)) Rpost

/-! ## The region as a segment -/

section Region

variable (hA : ∀ c w, (dats 0 c).A w = V m c (Pipeline.arrRef spec0 w))
  (hq3 : ∀ c, (dats 0 c).q 3 = fullShare.left) (hq4 : ∀ c, (dats 0 c).q 4 = fullShare.right)
  (hq : ∀ c (w : Fin cfg0.W), w ≠ 3 → w ≠ 4 → (dats 0 c).q w = fullShare)
  (howed : ∀ c t, (dats 0 c).owed t = 0)
  (hbody : ∀ c, Pipeline.BodyObligationLoose (dats 0 c) defs₀ Variants.none () Set.univ)
  (hin : ∀ c, Pipeline.ΦA spec0 c ⊢ (dats 0 c).Φ 0)
  (hout : ∀ c, (dats 0 c).Φ (Fin.last cfg0.N) ⊢ Pipeline.ΦA spec0 c)

-- the library's entailments are stated over the pinned configuration, which is this kernel's only after unfolding
-- plain definitions inside types
set_option backward.isDefEq.respectTransparency.types false in
/-- The pipelined region between the two stretches. It is entered holding every unscoped buffer at the entry
    contents and left holding them at the exit contents. Going in, the windows' arrays are sorted out of the
    buffers (the shared array's share cut in two), the generator register goes to the kernel's invariant, the
    three buffers no window reads bypass the region; coming out, the converse. The kernel has no semaphore of its
    own and owes nothing at any point. -/
def regionSeg : RegionSeg (pcfgs (F := F)) adm (pdats dats) () defs₀ Variants.none noLv lv0 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ noLv lv0 0 howed
  pre c := iprop(StableHlo.held (c : Thread nD τ) (Pipeline.ucRefs τ sig) (W1 m c) ∗ Rpre c)
  post c := iprop(StableHlo.held (c : Thread nD τ) (Pipeline.ucRefs τ sig) (Wx m c (dats 0 c)) ∗ Rpost c)
  X c := iprop(∃ r, prngReg c r)
  Y c := iprop(∃ r, prngReg c r)
  Z c := Pipeline.unscopedRest (Ix := Unit) (Name := ℕ) (U := UR sig nD τ) (Lvl := ℕ) spec0 c (V m c)
  hentry c := by
    have hsort := entry_sort m (dats 0 c) (hA c) (hq3 c) (hq4 c) (hq c)
    iintro ⟨⟨Hbufs, Hreg, Hnone⟩, -, -⟩
    ihave Hsorted := hsort $$ Hbufs
    icases Hsorted with ⟨Harrs, Hbypass⟩
    imodintro
    isplitl [Harrs]; · iexact Harrs
    isplitr
    · unfold Pipeline.prefHeld
      rw [show (Finset.univ : Finset (Fin 0)) = ∅ from rfl, BI.bigSep_empty]
      iempintro
    isplitl [Hnone]
    · unfold Pipeline.Dat.owesAt Pipeline.owesWithin
      iexists ∅
      isplitr
      · ipureintro; intro x hx; exact absurd hx (Finset.notMem_empty x)
      rw [show (pdats dats 0 c).owed 0 = 0 from howed c 0]
      iexact Hnone
    isplitl [Hreg]; · iexact Hreg
    iexact Hbypass
  hin c := by
    refine BIBase.Entails.trans ?_ (hin c)
    unfold Pipeline.ΦA
    iintro ⟨Hreg, -, Hscoped⟩
    isplitl [Hscoped]; · iexact Hscoped
    iexact Hreg
  hout c := by
    refine (hout c).trans ?_
    rw [Pipeline.ownSems0_none]; unfold Pipeline.ΦA
    iintro ⟨Hscoped, Hreg⟩
    isplitl [Hreg]; · iexact Hreg
    isplitr; · iempintro
    iexact Hscoped
  hexit c := by
    have hsort := exit_sort m (dats 0 c) (hA c) (hq3 c) (hq4 c) (hq c)
    iintro ⟨Harrs, Howes, Hreg, Hbypass⟩
    imodintro
    isplitl [Harrs Hbypass]
    · iapply hsort
      isplitl [Harrs]; · iexact Harrs
      iexact Hbypass
    isplitl [Hreg]; · iexact Hreg
    unfold Pipeline.Dat.owesAt Pipeline.owesWithin
    rw [show (pdats dats 0 c).owed (Fin.last _) = 0 from howed c _]
    icases Howes with ⟨%Wr, -, Howes⟩
    iexists Wr; iexact Howes

end Region

/-! ## What the buffers hold at the return -/

/-- The result buffer's final contents: the output array, two stacked halves of 5000 rows, re-laid as one matrix
    of 10000 rows — the last re-laying's function of the output array after all 25 write-backs. -/
def resultOf {c : Dev nD} (out : Buf (Elt F) ((c : Thread nD τ).loc main_v2)) : Buf (Elt F) ((c : Thread nD τ).loc main_v3) :=
  fun i => shapeCast S10000x128 out shapeCasts_S2x5000x128_S10000x128 i

theorem Wend_result (c : Dev nD) :
    Wend m dats c (Proc.devRef .tc main_v3) = resultOf ((dats 0 c).arrAt 5 cfg0.N) := by
  simp only [hostOps1, StableHlo.after_cons, StableHlo.after_nil]
  rw [StableHlo.reshape_result', Wx_out]
  rfl

/-- The first stretch writes the two re-laid inputs only, -/
theorem writes_before : (hostOps0 : List (HloOp τ sig (Elt F))).Forall fun op =>
    op.writes ⊆ ([main_v0, main_v1].map (Proc.devRef (τ := τ) .tc)).toFinset := by
  simp [List.Forall]
/-- and the last the result only. -/
theorem writes_after : (hostOps1 : List (HloOp τ sig (Elt F))).Forall fun op =>
    op.writes ⊆ ([main_v3].map (Proc.devRef (τ := τ) .tc)).toFinset := by
  simp [List.Forall]

/-- A buffer that neither stretch writes and that is not the region's output ends as launched: walk back from the
    return through the last re-laying, the region's exit, and the first two re-layings. -/
theorem Wend_of_untouched (c : Dev nD) (b : Ref sig .tc) (h0 : b ∉ [main_v0, main_v1]) (h2 : b ≠ main_v2) (h3 : b ∉ [main_v3]) :
    Wend m dats c (Proc.devRef .tc b) = m ((c : Thread nD τ).loc b) :=
  calc Wend m dats c (Proc.devRef .tc b)
      = Wx m c (dats 0 c) (Proc.devRef .tc b) := StableHlo.after_of_writes_sub hostOps1 _ writes_after h3
    _ = W1 m c (Proc.devRef .tc b) := Wx_of_ne m c (dats 0 c) b h2
    _ = W0 m c (Proc.devRef .tc b) := StableHlo.after_of_writes_sub hostOps0 _ writes_before h0
    _ = m ((c : Thread nD τ).loc b) := rfl

/-- An unscoped buffer of the TensorCore is among those the thread states hold. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## @main as its three segments, and the launch -/

section Launch

variable (hA : ∀ c w, (dats 0 c).A w = V m c (Pipeline.arrRef spec0 w))
  (hq3 : ∀ c, (dats 0 c).q 3 = fullShare.left) (hq4 : ∀ c, (dats 0 c).q 4 = fullShare.right)
  (hq : ∀ c (w : Fin cfg0.W), w ≠ 3 → w ≠ 4 → (dats 0 c).q w = fullShare)
  (howed : ∀ c t, (dats 0 c).owed t = 0)
  (hbody : ∀ c, Pipeline.BodyObligationLoose (dats 0 c) defs₀ Variants.none () Set.univ)
  (hin : ∀ c, Pipeline.ΦA spec0 c ⊢ (dats 0 c).Φ 0)
  (hout : ∀ c, (dats 0 c).Φ (Fin.last cfg0.N) ⊢ Pipeline.ΦA spec0 c)

/-- At the return the thread state is regrouped: the buffers and the generator register on one side, the core owing
    nothing on the other. -/
theorem end_state (c : Dev nD) :
    (iprop(StableHlo.held (c : Thread nD τ) (Pipeline.ucRefs τ sig) (Wend m dats c) ∗ Rpost c) : sProp 𝕄)
      ⊢ iprop((StableHlo.held (c : Thread nD τ) (Pipeline.ucRefs τ sig) (Wend m dats c) ∗ ∃ r, prngReg c r)
          ∗ ∃ Wr, owes (c : Thread nD τ) (0 : CellTallies nD τ sig Unit) Wr) := by
  iintro ⟨Hbufs, Hreg, Howes⟩
  isplitr [Howes]
  · isplitl [Hbufs]; · iexact Hbufs
    iexact Hreg
  · iexact Howes

/-- The re-layings before the region, the region, the re-laying after it. -/
abbrev segs : List (Seg (pcfgs (F := F)) adm (pdats dats) () defs₀ Variants.none noLv lv0) :=
  [.host (segBefore m), .region (regionSeg m dats hA hq3 hq4 hq howed hbody hin hout), .host (segAfter m dats)]

/-- @main is the run of these three segments. -/
theorem main_eq_segs (c : Dev nD) : main (F := F) c = Seg.run (segs m dats hA hq3 hq4 hq howed hbody hin hout) :=
  main_segs adm (pdats dats) () Variants.none noLv lv0 (segBefore m) (segAfter m dats)
    (regionSeg m dats hA hq3 hq4 hq howed hbody hin hout) rfl rfl c

-- the launch theorem's implicit arguments are found by unifying its conclusion with this one, which takes unfolding
-- plain definitions inside types
include hA hq3 hq4 hq howed hbody hin hout in
set_option backward.isDefEq.respectTransparency.types false in
/-- THE LAUNCH. From any memory with every counter at zero, for any proof data of the one pipeline that read the
    windows' arrays off the region's entry contents, lend the shared adjacency array in two halves, owe nothing,
    satisfy the body obligation and carry the kernel's invariant from and to the scratch and the generator
    register: every weakly fair execution of @main on the TensorCores terminates without fault, the result buffer
    ends holding the re-laid output array as the 25 write-backs leave it, and the four arguments end as launched. -/
theorem run_of :
    θ_run defs (onTc (τ := τ) (main (F := F))) ⟨m, fun _ => 0, ρ⟩ (fun r => ∀ c : Dev nD,
      r.2.mem ((c.tc : Thread nD τ).loc main_v3) = resultOf ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dats) () cellOf_inj emb₁ defs₀ Variants.none noLv lv0 m ρ main
    (segs m dats hA hq3 hq4 hq howed hbody hin hout)
    (fun c Q => by rw [main_eq_segs m dats hA hq3 hq4 hq howed hbody hin hout c])
    (List.nodup_singleton _)
    (O₀ := 0) (hL := fun _ _ => rfl) (G := fun _ => iprop(emp))
    (u₀ := initOf (Pipeline.cells cfgs cellOf_inj) (Pipeline.launchToks cfgs cellOf_inj))
    (hu₀ := by
      have hnone : (BI.emp : sProp 𝕄) ⊢ bigSep Finset.univ (fun _ : Dev nD => (BI.emp : sProp 𝕄)) := by
        rw [BI.bigSep_emp_const]
      have hlaunch : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hlaunch
      imodintro
      isplitl [Hlaunch]
      · iapply hlaunch; iexact Hlaunch
      · iapply hnone; iempintro)
    (T₀ := fun c => iprop(StableHlo.held (c : Thread nD τ) (Pipeline.ucRefs τ sig) (W0 m c) ∗ Rpre c))
    (Tₙ := fun c => iprop(StableHlo.held (c : Thread nD τ) (Pipeline.ucRefs τ sig) (Wend m dats c) ∗ ∃ r, prngReg c r))
    (hch := ⟨fun _ => .rfl, fun _ => .rfl, fun _ => .rfl, fun c => end_state m dats c⟩)
    (hinit := by
      refine Pipeline.initEach noLv lv0 fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hnone, -, Hreg, -⟩, -⟩
      imodintro
      isplitl [Hbufs]; · iexact Hbufs
      isplitl [Hreg]; · iexists _; iexact Hreg
      iexact Hnone)
    (QY := fun c s => ∀ b ∈ Pipeline.ucRefs τ sig, s.mem (((c : Thread nD τ)).1, b) = Wend m dats c b)
    (hfin := fun c s' => by
      iintro ⟨⟨Hbufs, -⟩, Hstate⟩
      unfold StableHlo.held
      imodintro
      iapply (pointsTo_read_all (Pipeline.ucRefs τ sig) (fun b => (((c : Thread nD τ)).1, b)) (Wend m dats c) s')
      isplitl [Hbufs]; · iexact Hbufs
      iexact Hstate)
    (hQ := fun s h c =>
      ⟨(h c _ (mem_unscoped main_v3 (by decide))).trans (Wend_result m dats c),
       (h c _ (mem_unscoped main_arg0 (by decide))).trans (Wend_of_untouched m dats c main_arg0 (by decide) (by decide) (by decide)),
       (h c _ (mem_unscoped main_arg1 (by decide))).trans (Wend_of_untouched m dats c main_arg1 (by decide) (by decide) (by decide)),
       (h c _ (mem_unscoped main_arg2 (by decide))).trans (Wend_of_untouched m dats c main_arg2 (by decide) (by decide) (by decide)),
       (h c _ (mem_unscoped main_arg3 (by decide))).trans (Wend_of_untouched m dats c main_arg3 (by decide) (by decide) (by decide))⟩)

end Launch

end Run

end Cert.KernelIdeal.Hand

end
-- ==== Proof.IdealRunFirst.lean ====
/-
  The body at the FIRST grid point: the branch is taken, so the support matrix x·w is computed from the whole
  feature and weight blocks and stored into the scratch; then both 200-row halves of the output block are computed
  from the scratch just written and stored. The lists of pieces each buffer ends with are found by running the body.
-/
import proofs.«175795_g70068096467658_cont_9to1_m_110_7_alg».proof.Proof.IdealSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the output's and the scratch's at anything — the
    body at a point where the branch is taken runs to the continuation holding the inputs' as they were, the output's
    with its two pieces written, the scratch's with the support written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) :
    Σ' (L5 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Hand

end
-- ==== Proof.IdealRunLater.lean ====
/-
  The body at every LATER grid point: the branch is not taken, the scratch already holds the support matrix and is
  only read; both 200-row halves of the output block are computed from it and stored.
-/
import proofs.«175795_g70068096467658_cont_9to1_m_110_7_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the scratch's at contents `xs`, the output's at
    anything — the body at a point where the branch is not taken runs to the continuation holding the inputs' and the
    scratch's as they were and the output's with its two pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) :
    { L5 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.KernelIdeal.Hand

end
-- ==== Proof.IdealBody.lean ====
/-
  What the region's buffers hold from point to point, and the body's obligation at every point.

  The scratch: before the first point anything; after it, and after every later point, the support matrix the
  first point computed from the whole feature and weight blocks (later points only read it). The output window's
  staging buffer after a point: the two 200-row pieces the body stored there, computed from the point's two
  adjacency blocks, the matching feature rows, the bias and the scratch. The adjacency array is lent to its two
  windows at the two halves of the full share.
-/
import proofs.«175795_g70068096467658_cont_9to1_m_110_7_alg».proof.Proof.IdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first grid point. -/
abbrev t0 : Fin cfg0.N := ⟨0, by decide⟩

theorem isFirst_t0 : isFirst (grid0.coords t0) := (isFirst_iff t0).mpr (Nat.zero_mod _)

/-! ## The pieces the two runs found, read back -/

/-- The first point's pieces for the scratch tile it. -/
theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- What the first point leaves in the scratch. -/
def soutFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) : Vec F S10000x128 .bf16 :=
  VS.read (Elt F) (VS.writes (Elt F) VS.junk (runFirst c i arg1 harg1 arg2 harg2 arg3 harg3 arg4 harg4 arg5 harg5 arg6 harg6 arg7 harg7 hc x0 x1 x2 x3 x4).2.1)

/-- The first point's pieces for the output block tile it. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) (y : S2x200x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S1x200x128.size (by sl_kernel_rfl) y

/-- What the first point leaves in the output block's buffer. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) : Vec F S2x200x128 .f32 :=
  VO.read (Elt F) (VO.writes (Elt F) VO.junk (runFirst c i arg1 harg1 arg2 harg2 arg3 harg3 arg4 harg4 arg5 harg5 arg6 harg6 arg7 harg7 hc x0 x1 x2 x3 x4).1)

/-- A later point's pieces for the output block tile it. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) (y : S2x200x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S1x200x128.size (by sl_kernel_rfl) y

/-- What a later point leaves in the output block's buffer. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) : Vec F S2x200x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## From point to point -/

/-- The scratch after the first point, and after every later one: the support matrix of the whole feature and
    weight blocks. -/
def supAfter (c : Dev nD) : Vec F S10000x128 .bf16 :=
  soutFirst c (grid0.coords t0) (ms0 t0) (hs0 t0) (ms1 t0) (hs1 t0) (ms2 t0) (hs2 t0) (ms3 t0) (hs3 t0) (ms4 t0) (hs4 t0) (ms5 t0) (hs5 t0) scM (Memref.isWhole_whole _) isFirst_t0 (iblk m c 0 t0) (iblk m c 1 t0) (iblk m c 2 t0) (iblk m c 3 t0) (iblk m c 4 t0)

/-- The output block's buffer after point `t`. -/
def out5 (c : Dev nD) (t : Fin cfg0.N) : Vec F S2x200x128 .f32 :=
  if h : t.val % 25 = 0 then
    outFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((isFirst_iff t).mp hc)) (iblk m c 0 t) (iblk m c 1 t) (iblk m c 2 t) (iblk m c 3 t) (iblk m c 4 t) (supAfter m c)

/-- What the body may rely on besides the windows, before position `n`: before the first point the scratch at
    anything; afterwards the scratch at the support matrix. The generator register rides along. -/
def PhiS (c : Dev nD) : ℕ → sProp 𝕄
  | 0 => Pipeline.ΦA spec0 c
  | _ + 1 => iprop(iprop(owns (c : Thread nD τ) scM fullShare (supAfter m c)) ∗ (∃ r, prngReg c r))

theorem PhiS_pos (c : Dev nD) (n : ℕ) (hz : n ≠ 0) :
    PhiS m c n = iprop(iprop(owns (c : Thread nD τ) scM fullShare (supAfter m c)) ∗ (∃ r, prngReg c r)) := by
  cases n with
  | zero => exact absurd rfl hz
  | succ n => rfl

/-! ## The proof data -/

/-- The arrays as the region finds them; after the body each input's buffer at its block, the output's at `out5`;
    the adjacency array's full share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

theorem Phi_castSucc (c : Dev nD) (t : Fin cfg0.N) : (dats m 0 c).Φ t.castSucc = PhiS m c t.val := by
  dsimp only [dats]; simp only [Fin.coe_castSucc]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- At the first point the branch is taken and the first run applies, the scratch handed over at anything and
    taken back at the support matrix; at a later point the second run applies, the scratch at the support matrix
    in and out. The inputs' buffers hold their blocks throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(iprop(owns (c : Thread nD τ) scM fullShare (supAfter m c)) ∗ (∃ r, prngReg c r)) from rfl]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live_all 0 t], after0]
  rw [show (dats m 0 c).leavesExact 1 t = owns (c : Thread nD τ) (ms1 t) fullShare ((dats m 0 c).after 1 t) from by
    unfold Dat.leavesExact; rw [live_all 1 t], after1]
  rw [show (dats m 0 c).leavesExact 2 t = owns (c : Thread nD τ) (ms2 t) fullShare ((dats m 0 c).after 2 t) from by
    unfold Dat.leavesExact; rw [live_all 2 t], after2]
  rw [show (dats m 0 c).leavesExact 3 t = owns (c : Thread nD τ) (ms3 t) fullShare ((dats m 0 c).after 3 t) from by
    unfold Dat.leavesExact; rw [live_all 3 t], after3]
  rw [show (dats m 0 c).leavesExact 4 t = owns (c : Thread nD τ) (ms4 t) fullShare ((dats m 0 c).after 4 t) from by
    unfold Dat.leavesExact; rw [live_all 4 t], after4]
  rw [show (dats m 0 c).leavesExact 5 t = owns (c : Thread nD τ) (ms5 t) fullShare ((dats m 0 c).after 5 t) from by
    unfold Dat.leavesExact; rw [live_all 5 t], after5]
  rw [Phi_castSucc m c t]
  by_cases h0 : t.val % 25 = 0
  · have hz : t.val = 0 := by omega
    obtain rfl : t = t0 := Fin.ext hz
    rw [show PhiS m c (t0 : Fin cfg0.N).val = Pipeline.ΦA spec0 c from rfl, PhiA_eq]
    rw [show out5 m c t0 = outFirst c (grid0.coords t0) (ms0 t0) (hs0 t0) (ms1 t0) (hs1 t0) (ms2 t0) (hs2 t0) (ms3 t0) (hs3 t0) (ms4 t0) (hs4 t0) (ms5 t0) (hs5 t0) scM (Memref.isWhole_whole _) isFirst_t0 (iblk m c 0 t0) (iblk m c 1 t0) (iblk m c 2 t0) (iblk m c 3 t0) (iblk m c 4 t0) from dif_pos h0]
    unfold outFirst supAfter soutFirst
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t0) _ _ _ _ _ _ _ _ _ _ _ _ _ _ isFirst_t0 (iblk m c 0 t0) (iblk m c 1 t0) (iblk m c 2 t0) (iblk m c 3 t0) (iblk m c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · have hz : t.val ≠ 0 := fun h => h0 (by rw [h])
    rw [PhiS_pos m c _ hz]
    rw [show out5 m c t = outLater c (grid0.coords t) (ms0 t) (hs0 t) (ms1 t) (hs1 t) (ms2 t) (hs2 t) (ms3 t) (hs3 t) (ms4 t) (hs4 t) (ms5 t) (hs5 t) scM (Memref.isWhole_whole _) (fun hc => h0 ((isFirst_iff t).mp hc)) (iblk m c 0 t) (iblk m c 1 t) (iblk m c 2 t) (iblk m c 3 t) (iblk m c 4 t) (supAfter m c) from dif_neg h0]
    unfold outLater
    iintro ⟨⟨HS, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => h0 ((isFirst_iff t).mp hc)) (iblk m c 0 t) (iblk m c 1 t) (iblk m c 2 t) (iblk m c 3 t) (iblk m c 4 t) (supAfter m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The obligation at every point. -/
theorem body_obligation (c : Dev nD) : BodyObligation (dats (F := F) m 0 c) (defs₀ (F := F)) Variants.none () Set.univ := fun t => by
  rw [bigSep_W0, bigSep_W0]
  exact sound_body m c t

/-- What the launch lends the region is the invariant before the first point. -/
theorem hin (c : Dev nD) : Pipeline.ΦA spec0 c ⊢ (dats m 0 c).Φ 0 := Idealize.SL.BI.Entails.refl _

/-- After the last point the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

theorem q3 (c : Dev nD) : (dats m 0 c).q 3 = fullShare.left := rfl
theorem q4 (c : Dev nD) : (dats m 0 c).q 4 = fullShare.right := rfl
theorem q_other (c : Dev nD) (w : Fin cfg0.W) (h3 : w ≠ 3) (h4 : w ≠ 4) : (dats m 0 c).q w = fullShare := by
  fin_cases w <;> first | rfl | exact absurd rfl h3 | exact absurd rfl h4

end Cert.KernelIdeal.Hand

end
-- ==== Proof.IdealPieces.lean ====
/-
  The pieces the two runs found, as values: the scratch after the first point is the support matrix of the feature
  and weight blocks; the output block's buffer after a point is its two 200-row halves, each the payload of one
  store — computed from the scratch, the bias block, one adjacency block and the 200 feature rows the body loads at
  the point's offset.
-/
import proofs.«175795_g70068096467658_cont_9to1_m_110_7_alg».proof.Proof.IdealBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves of an output block as one list of stores (the later store first): rows 200‥399 of the buffer
    from the second adjacency block and the feature rows at offset 5000 + 200·t, rows 0‥199 from the first
    adjacency block and the feature rows at offset 200·t; `xs` is the scratch. -/
def halves (i : grid0.Coords) (x0 : Vec F S10000x128 .f32) (x2 : Vec F S1x128 .f32) (x3 x4 : Vec F S1x200x10000 .f32)
    (xs : Vec F S10000x128 .bf16) : List (View.Piece (Elt F) S2x200x128 .f32) :=
  [⟨(Rect.unit (s := S2x200x128) ![1, 0, 0] S1x200x128.size inb_S2x200x128_S1x200x128_1_0_0), k0_pay1 xs (k0_pay3 x2) (k0_pay5 x4) (View.ld x0 (Rect.unit (s := S10000x128) (k0_off1 i 5000#32) S200x128.size (k0_off1_inb i 1)))⟩,
   ⟨(Rect.unit (s := S2x200x128) ![0, 0, 0] S1x200x128.size inb_S2x200x128_S1x200x128_0_0_0), k0_pay4 xs x2 x3 (View.ld x0 (Rect.unit (s := S10000x128) (k0_off1 i 0#32) S200x128.size (k0_off1_inb i 0)))⟩]

/-- The first point leaves the support matrix in the scratch. -/
theorem soutFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) : soutFirst c i arg1 harg1 arg2 harg2 arg3 harg3 arg4 harg4 arg5 harg5 arg6 harg6 arg7 harg7 hc x0 x1 x2 x3 x4 = k0_pay2 x0 x1 := by
  unfold soutFirst
  rw [View.read_writes_eq_canon _ _ _ (scoverFirst c i arg1 harg1 arg2 harg2 arg3 harg3 arg4 harg4 arg5 harg5 arg6 harg6 arg7 harg7 hc x0 x1 x2 x3 x4)]
  unfold runFirst
  dsimp only
  sl_unfold_words
  rw [View.canon_unit_zero hz2]
  simp only [View.readAt_eq_ld, harg1.read_unread, harg2.read_unread, View.ld_unit_zero (S := S10000x128) hz2, View.ld_unit_zero (S := S128x128) hz2]

/-- A later point leaves the two halves computed from the scratch as it found it. -/
theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : ¬isFirst i)
    (x0 : Vec F S10000x128 .f32) (x1 : Vec F S128x128 .f32) (x2 : Vec F S1x128 .f32) (x3 : Vec F S1x200x10000 .f32) (x4 : Vec F S1x200x10000 .f32) (xs : Vec F S10000x128 .bf16) :
    outLater c i arg1 harg1 arg2 harg2 arg3 harg3 arg4 harg4 arg5 harg5 arg6 harg6 arg7 harg7 hc x0 x1 x2 x3 x4 xs = View.canon (halves i x0 x2 x3 x4 xs) := by
  unfold outLater
  rw [View.read_writes_eq_canon _ _ _ (coverLater c i arg1 harg1 arg2 harg2 arg3 harg3 arg4 harg4 arg5 harg5 arg6 harg6 arg7 harg7 hc x0 x1 x2 x3 x4 xs)]
  unfold runLater
  dsimp only
  sl_unfold_words
  simp only [View.readAt_eq_ld, harg1.read_unread, harg3.read_unread, harg4.read_unread, harg5.read_unread, harg7.read_unread,
    View.ld_unit_zero (S := S10000x128) hz2, View.ld_unit_zero (S := S1x128) hz2, View.ld_unit_zero (S := S1x200x10000) hz3]
  rfl

/-- The first point leaves the two halves computed from the support matrix it has just stored. -/
theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x200x10000 .f32) (harg4 : arg4.IsWhole) (arg5 : Memref sig .tc .vmem S1x200x10000 .f32) (harg5 : arg5.IsWhole) (arg6 : Memref sig .tc .vmem S2x200x128 .f32) (harg6 : arg6.IsWhole) (arg7 : Memref sig .tc .vmem S10000x128 .bf16) (harg7 : arg7.IsWhole) (hc : isFirst i)
    (x0 : Vec F S10000x128 .f32) (x1 : Vec F S128x128 .f32) (x2 : Vec F S1x128 .f32) (x3 : Vec F S1x200x10000 .f32) (x4 : Vec F S1x200x10000 .f32) :
    outFirst c i arg1 harg1 arg2 harg2 arg3 harg3 arg4 harg4 arg5 harg5 arg6 harg6 arg7 harg7 hc x0 x1 x2 x3 x4 = View.canon (halves i x0 x2 x3 x4 (k0_pay2 x0 x1)) := by
  unfold outFirst
  rw [View.read_writes_eq_canon _ _ _ (coverFirst c i arg1 harg1 arg2 harg2 arg3 harg3 arg4 harg4 arg5 harg5 arg6 harg6 arg7 harg7 hc x0 x1 x2 x3 x4)]
  unfold runFirst
  dsimp only
  sl_unfold_words
  rw [View.readCov_unit_zero (S := S10000x128) _ hz2]
  simp only [View.readAt_eq_ld, harg1.read_unread, harg2.read_unread, harg3.read_unread, harg4.read_unread, harg5.read_unread,
    View.ld_unit_zero (S := S10000x128) hz2, View.ld_unit_zero (S := S128x128) hz2, View.ld_unit_zero (S := S1x128) hz2, View.ld_unit_zero (S := S1x200x10000) hz3]
  rfl

end Cert.KernelIdeal.Hand

end
-- ==== Proof.Spec.lean ====
/-
  The graph-convolution layer as ONE function of its four argument arrays, on the extended reals.

  With x : [10000,128] the node features, a : [10000,10000] the dense adjacency, w : [128,128] the weight and
  b : [128] the bias,
      support(k,c) = Σ_j x(k,j)·w(j,c)
      blend(r,c)   = β·x(r,c) + γ·Σ_k a(r,k)·support(k,c)
      out(r,c)     = blend(r,c) / max(√(Σ_c' blend(r,c')²), ε) + b(c)
  where β, γ, ε are the three float words both programs spell (0.001, 0.999 and 1e-12 in binary32). Nothing here is
  evaluated: the same word stands on both sides.

  An output row depends on the row's own features, the row's adjacency entries, the whole support and the bias.
  `rowOut` states exactly that, over plain functions of coordinates, so that a program which sees only a block of
  rows and a program which sees the whole arrays can both be read against it.
-/
import Idealize.ShloMosaic.PureOps.Ideal
import Idealize.ShloMosaic.Lib.ValueIdx

noncomputable section

namespace Cert.GraphConv

open Idealize.ShloMosaic Idealize.ShloMosaic.ValueIdx
open scoped BigOperators

/-- The weight of a node's own features in the blend (the binary32 word of 0.001). -/
def selfWeight : EReal := Ideal.ofBits .f32 0x3A83126F#32
/-- The weight of the aggregated neighbours in the blend (the binary32 word of 0.999). -/
def neighWeight : EReal := Ideal.ofBits .f32 0x3F7FBE77#32
/-- The floor under a row's Euclidean norm (the binary32 word of 1e-12). -/
def normFloor : EReal := Ideal.ofBits .f32 0x2B8CBCCC#32

/-- One row of the layer, from the row's features `xr`, the row's adjacency entries `ar`, the support matrix
    `sup` and the bias `bias`: the blended row, divided by its floored Euclidean norm, plus the bias. -/
def rowBlend (xr : Fin 128 → EReal) (ar : Fin 10000 → EReal) (sup : Fin 10000 → Fin 128 → EReal) (c : Fin 128) : EReal :=
  selfWeight * xr c + neighWeight * ∑ k : Fin 10000, ar k * sup k c

/-- The sum of the squares of a blended row. -/
def rowSquares (xr : Fin 128 → EReal) (ar : Fin 10000 → EReal) (sup : Fin 10000 → Fin 128 → EReal) : EReal :=
  ∑ c : Fin 128, rowBlend xr ar sup c * rowBlend xr ar sup c

/-- The row's divisor: its Euclidean norm, floored. -/
def rowDivisor (xr : Fin 128 → EReal) (ar : Fin 10000 → EReal) (sup : Fin 10000 → Fin 128 → EReal) : EReal :=
  max (Ideal.sqrt (rowSquares xr ar sup)) normFloor

/-- One entry of an output row. -/
def rowOut (xr : Fin 128 → EReal) (ar : Fin 10000 → EReal) (sup : Fin 10000 → Fin 128 → EReal) (bias : Fin 128 → EReal)
    (c : Fin 128) : EReal :=
  Ideal.div (rowBlend xr ar sup c) (rowDivisor xr ar sup) + bias c

/-- The support matrix x·w, entry (k, c). -/
def support (x : (⟨2, ![10000, 128]⟩ : Shape).Idx → EReal) (w : (⟨2, ![128, 128]⟩ : Shape).Idx → EReal)
    (k : Fin 10000) (c : Fin 128) : EReal :=
  ∑ j : Fin 128, x (ix2 k j) * w (ix2 j c)

/-- THE LAYER: the output array as a function of the four argument arrays, entry by entry. -/
def layer (x : (⟨2, ![10000, 128]⟩ : Shape).Idx → EReal) (a : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal := fun i =>
  rowOut (fun c => x (ix2 (i 0) c)) (fun k => a (ix2 (i 0) k)) (support x w) (fun c => b (ix1 c)) (i 1)

end Cert.GraphConv

end
-- ==== Proof.PayloadAt.lean ====
/-
  What the kernel body's stores hold, entry by entry, on the extended reals.

  The body stores three arrays: the support x·w (once), and the two 200-row halves of an output block. Each is a
  pure term over the arrays the body has read. Here each term is read at one entry, given by its coordinates, and
  identified with the specification:
    • the support's entry (k, c) is Σ_j x(k,j)·w(j,c): the narrowing conversions are the identity on the extended
      reals, the product accumulates into zero, and the final cast is to the same shape;
    • a half block's entry (0, r, c) is the specification's output row for row r of the 200 feature rows, row r of
      the adjacency block, the whole support and the bias: the blend is pointwise, the row's sum of squares is a sum
      along the lanes, the column of norms is spread back over the lanes, and the bias row is spread over the rows.
  The three float words (the two blend weights and the norm's floor) are the same words on both sides and are never
  evaluated; only the zero word of the accumulators is read as the number 0.
-/
import proofs.«175795_g70068096467658_cont_9to1_m_110_7_alg».proof.Proof.Spec
import proofs.«175795_g70068096467658_cont_9to1_m_110_7_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.GraphConv.Payload

open Idealize.ShloMosaic Idealize.ShloMosaic.ValueIdx Cert.KernelIdeal Cert.KernelIdeal.Gen
open scoped BigOperators

/-! ## The two contractions, read at coordinates

Both of the kernel's matrix products contract the left operand's second axis against the right operand's first axis,
into a zero accumulator. The operand index a product reads at output entry (k, c) and contracted coordinate j is
(k, j) on the left and (j, c) on the right; so each product, read at an entry, is the plain sum over j. -/

theorem xw_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem xw_lhs_contracted (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs_contracted (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs_column (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The features-times-weight product at (k, c): the sum over j of x(k, j) · w(j, c). -/
theorem matmul_features_weight_at (x : FVec Ideal S10000x128 .bf16) (w : FVec Ideal S128x128 .bf16) (k : Fin 10000) (c : Fin 128) :
    matmul dot_S10000x128_S128x128_S10000x128_1_0_0_1_n_n none x w (constant (F := Ideal) S10000x128 .f32 0x00000000#32) (ix2 k c)
      = ∑ j : Fin 128, x (ix2 k j) * w (ix2 j c) := by
  simp only [matmul]
  rw [Ideal.matmul_constant_zero_apply,
    ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k c) ((contrEquiv1 dot_S10000x128_S128x128_S10000x128_1_0_0_1_n_n 128 rfl rfl).symm j) = ix2 k j :=
    funext fun a => Fin.ext (by
      match a with
      | ⟨0, _⟩ => exact xw_lhs_row _ _
      | ⟨1, _⟩ => exact (xw_lhs_contracted _ _).trans hj)
  have er : dot_S10000x128_S128x128_S10000x128_1_0_0_1_n_n.rhsIdx (ix2 k c) ((contrEquiv1 dot_S10000x128_S128x128_S10000x128_1_0_0_1_n_n 128 rfl rfl).symm j) = ix2 j c :=
    funext fun a => Fin.ext (by
      match a with
      | ⟨0, _⟩ => exact (xw_rhs_contracted _ _).trans hj
      | ⟨1, _⟩ => exact xw_rhs_column _ _)
  rw [el, er]

theorem as_lhs_row (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem as_lhs_contracted (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem as_rhs_contracted (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem as_rhs_column (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- The adjacency-block-times-support product at (r, c): the sum over k of a(r, k) · s(k, c). -/
theorem matmul_adjacency_support_at (x : FVec Ideal S200x10000 .bf16) (w : FVec Ideal S10000x128 .bf16) (k : Fin 200) (c : Fin 128) :
    matmul dot_S200x10000_S10000x128_S200x128_1_0_0_1_n_n none x w (constant (F := Ideal) S200x128 .f32 0x00000000#32) (ix2 k c)
      = ∑ j : Fin 10000, x (ix2 k j) * w (ix2 j c) := by
  simp only [matmul]
  rw [Ideal.matmul_constant_zero_apply,
    ← Equiv.sum_comp (contrEquiv1 dot_S200x10000_S10000x128_S200x128_1_0_0_1_n_n 10000 rfl rfl).symm]
  refine Finset.sum_congr rfl fun j _ => ?_
  have hj := contrEquiv1_symm_val dot_S200x10000_S10000x128_S200x128_1_0_0_1_n_n 10000 rfl rfl j
  have el : dot_S200x10000_S10000x128_S200x128_1_0_0_1_n_n.lhsIdx (ix2 k c) ((contrEquiv1 dot_S200x10000_S10000x128_S200x128_1_0_0_1_n_n 10000 rfl rfl).symm j) = ix2 k j :=
    funext fun a => Fin.ext (by
      match a with
      | ⟨0, _⟩ => exact as_lhs_row _ _
      | ⟨1, _⟩ => exact (as_lhs_contracted _ _).trans hj)
  have er : dot_S200x10000_S10000x128_S200x128_1_0_0_1_n_n.rhsIdx (ix2 k c) ((contrEquiv1 dot_S200x10000_S10000x128_S200x128_1_0_0_1_n_n 10000 rfl rfl).symm j) = ix2 j c :=
    funext fun a => Fin.ext (by
      match a with
      | ⟨0, _⟩ => exact (as_rhs_contracted _ _).trans hj
      | ⟨1, _⟩ => exact as_rhs_column _ _)
  rw [el, er]

/-- The support block the kernel stores, entry (k, c): the narrowing conversions are the identity on the extended reals
    and the cast is to the same shape, so what is left is the product's sum. -/
theorem support_at (x : Vec Ideal S10000x128 .f32) (w : Vec Ideal S128x128 .f32) (k : Fin 10000) (c : Fin 128) :
    k0_pay2 x w (ix2 k c) = Cert.GraphConv.support x w k c := by
  unfold k0_pay2
  rw [shapeCast_self]
  exact matmul_features_weight_at _ _ k c

/-! ## The layout operations around a row's norm, at coordinates -/

/-- The sum along the lanes: the [200,128] → [200] reduction, read at row r, is the sum over the row's 128 entries. -/
theorem lane_sum_at (src : FVec Ideal S200x128 .f32) (h : S200x128.Reduces [1] S200) (hφ : FKind.Formats .f32)
    (hacc : (0x00000000#32 : BitVec 32) = FKind.add.neutral .f32 hφ) (r : Fin 200) :
    multiReduction (F := Ideal) .add [1] S200 src 0x00000000#32 h hφ hacc (ix1 r) = ∑ c : Fin 128, src (ix2 r c) := by
  refine (Ideal.multiReduction_add_single src 0x00000000#32 h hφ hacc (ix1 r)).trans ?_
  refine Finset.sum_congr rfl fun c _ => congrArg src ?_
  funext a
  refine Fin.ext ?_
  match a with
  | ⟨0, _⟩ => rfl
  | ⟨1, _⟩ => rfl

/-- A vector of 200 entries viewed as a column [200,1]: entry (r, 0) is entry r. -/
theorem column_cast_at {α : Type} (v : S200.Idx → α) (h : S200.ShapeCasts S200x1) (r : Fin 200) (u : Fin 1) :
    shapeCast S200x1 v h (ix2 r u) = v (ix1 r) :=
  shapeCast_apply v h (ix2 r u) (ix1 r) (by
    have hu : u.val = 0 := by omega
    rw [Shape.rowMajor_val_two, Shape.rowMajor_val_one]
    show r.val = r.val * 1 + u.val
    rw [hu, Nat.mul_one, Nat.add_zero])

/-- A column [200,1] spread over 128 lanes: entry (r, c) is the column's entry (r, 0). -/
theorem column_broadcast_at {α : Type} (v : S200x1.Idx → α) (h : S200x1.Broadcasts S200x128) (r : Fin 200) (c : Fin 128) :
    broadcastTo S200x128 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-! ## One half of an output block

The kernel computes each 200-row half of an output block by the same chain: blend the rows' own features with the
aggregated neighbours, divide every row by its floored Euclidean norm, add the bias. `blendBlock` and
`normalizedBlock` spell that chain once, operation by operation as the kernel does, over an arbitrary aggregate. -/

/-- The blend of 200 feature rows `xr` with 200 aggregated rows `m`. -/
def blendBlock (m : FVec Ideal S200x128 .f32) (xr : Vec Ideal S200x128 .f32) : FVec Ideal S200x128 .f32 :=
  addf (mulf (broadcast S200x128 (Scalar.ofBits (F := Ideal) .f32 0x3A83126F#32)) xr)
    (mulf (broadcast S200x128 (Scalar.ofBits (F := Ideal) .f32 0x3F7FBE77#32)) m)

/-- 200 rows `v`, each divided by its floored Euclidean norm, plus the bias row, as a [1,200,128] block. -/
def normalizedBlock (v : FVec Ideal S200x128 .f32) (bias : FVec Ideal S1x128 .f32) : FVec Ideal S1x200x128 .f32 :=
  shapeCast S1x200x128
    (addf
      (divf v
        (broadcastTo S200x128
          (maximumf
            (sqrt (shapeCast S200x1
              (multiReduction (F := Ideal) .add [1] S200 (mulf v v) 0x00000000#32 reduces_S200x128_S200 (.inl rfl) rfl)
              shapeCasts_S200_S200x1))
            (broadcast S200x1 (Scalar.ofBits (F := Ideal) .f32 0x2B8CBCCC#32)))
          broadcasts_S200x1_S200x128))
      (broadcastTo S200x128 bias broadcasts_S1x128_S200x128))
    shapeCasts_S200x128_S1x200x128

/-- The blend at (r, c): the two weights are the specification's two words, unevaluated. -/
theorem blendBlock_at (m : FVec Ideal S200x128 .f32) (xr : Vec Ideal S200x128 .f32) (r : Fin 200) (c : Fin 128) :
    blendBlock m xr (ix2 r c) = selfWeight * xr (ix2 r c) + neighWeight * m (ix2 r c) := rfl

/-- The normalised block at (0, r, c): entry (r, c) over the floored root of row r's sum of squares, plus the bias
    at c. -/
theorem normalizedBlock_at (v : FVec Ideal S200x128 .f32) (bias : FVec Ideal S1x128 .f32) (r : Fin 200) (c : Fin 128) :
    normalizedBlock v bias (ix3 (0 : Fin 1) r c)
      = Ideal.div (v (ix2 r c)) (max (Ideal.sqrt (∑ c' : Fin 128, v (ix2 r c') * v (ix2 r c'))) normFloor)
          + bias (ix2 (0 : Fin 1) c) := by
  unfold normalizedBlock
  refine (shapeCast_ab_1ab_apply _ _ (0 : Fin 1) r c).trans ?_
  refine congrArg₂ (· + ·) (congrArg (Ideal.div (v (ix2 r c))) ?_) (broadcastTo_1b_ab_apply bias _ r c)
  refine (column_broadcast_at _ _ r c).trans ?_
  refine congrArg (fun s => max (Ideal.sqrt s) normFloor) ?_
  refine (column_cast_at _ _ r (0 : Fin 1)).trans ?_
  exact lane_sum_at _ _ _ _ r

/-! ## The two halves against the specification -/

/-- One half of an output block, over an arbitrary [200,10000] adjacency block `a2` and bias row: entry (0, r, c) is
    the specification's output row built from row r of the features, row r of the adjacency block, the support and
    the bias. Every entry of the blended row r is the specification's `rowBlend`, so the row's sum of squares and its
    divisor are the specification's too. -/
theorem half_at (sup : FVec Ideal S10000x128 .bf16) (bias : FVec Ideal S1x128 .f32) (a2 : FVec Ideal S200x10000 .f32)
    (xr : Vec Ideal S200x128 .f32) (r : Fin 200) (c : Fin 128) :
    normalizedBlock
        (blendBlock
          (matmul dot_S200x10000_S10000x128_S200x128_1_0_0_1_n_n none (truncf .bf16 a2 bitsLt_bf16_f32) sup (constant (F := Ideal) S200x128 .f32 0x00000000#32))
          xr)
        bias (ix3 (0 : Fin 1) r c)
      = rowOut (fun c' => xr (ix2 r c')) (fun k => a2 (ix2 r k)) (fun k c' => sup (ix2 k c'))
          (fun c' => bias (ix2 (0 : Fin 1) c')) c := by
  have hb : ∀ c' : Fin 128,
      blendBlock
          (matmul dot_S200x10000_S10000x128_S200x128_1_0_0_1_n_n none (truncf .bf16 a2 bitsLt_bf16_f32) sup (constant (F := Ideal) S200x128 .f32 0x00000000#32))
          xr (ix2 r c')
        = rowBlend (fun c' => xr (ix2 r c')) (fun k => a2 (ix2 r k)) (fun k c' => sup (ix2 k c')) c' := fun c' => by
    rw [blendBlock_at, matmul_adjacency_support_at]
    rfl
  rw [normalizedBlock_at]
  simp only [hb]
  rfl

/-- The first 200 rows of an output block: what the kernel stores at (0, r, c) is the specification's output row. -/
theorem first_half_at (sup : Vec Ideal S10000x128 .bf16) (b : Vec Ideal S1x128 .f32) (a : Vec Ideal S1x200x10000 .f32)
    (xr : Vec Ideal S200x128 .f32) (r : Fin 200) (c : Fin 128) :
    k0_pay4 sup b a xr (ix3 (0 : Fin 1) r c)
      = rowOut (fun c' => xr (ix2 r c')) (fun k => a (ix3 (0 : Fin 1) r k)) (fun k c' => sup (ix2 k c'))
          (fun c' => b (ix2 (0 : Fin 1) c')) c := by
  have e : k0_pay4 sup b a xr
      = normalizedBlock
          (blendBlock
            (matmul (φ₂ := .bf16) dot_S200x10000_S10000x128_S200x128_1_0_0_1_n_n none
              (truncf .bf16 (shapeCast S200x10000 a shapeCasts_S1x200x10000_S200x10000) bitsLt_bf16_f32) sup
              (constant (F := Ideal) S200x128 .f32 0x00000000#32))
            xr)
          (k0_pay3 b) := rfl
  have hbias : k0_pay3 b = b := shapeCast_self b _
  have hrow : (fun k : Fin 10000 => shapeCast S200x10000 a shapeCasts_S1x200x10000_S200x10000 (ix2 r k))
      = fun k => a (ix3 (0 : Fin 1) r k) := funext fun k => shapeCast_1ab_ab_apply a _ r k
  rw [e, half_at, hbias, hrow]

/-- The second 200 rows. The body runs the same chain once more, over the bias row and an adjacency block that have
    already gone through their shape casts; as a term over a block `a` it is the first half's term, so the same
    statement holds (the body applies it to the other of the two adjacency blocks it has loaded). -/
theorem second_half_at (sup : Vec Ideal S10000x128 .bf16) (b : Vec Ideal S1x128 .f32) (a : Vec Ideal S1x200x10000 .f32)
    (xr : Vec Ideal S200x128 .f32) (r : Fin 200) (c : Fin 128) :
    k0_pay1 sup (k0_pay3 b) (k0_pay5 a) xr (ix3 (0 : Fin 1) r c)
      = rowOut (fun c' => xr (ix2 r c')) (fun k => a (ix3 (0 : Fin 1) r k)) (fun k c' => sup (ix2 k c'))
          (fun c' => b (ix2 (0 : Fin 1) c')) c := by
  have e : k0_pay1 sup (k0_pay3 b) (k0_pay5 a) xr = k0_pay4 sup b a xr := rfl
  rw [e]
  exact first_half_at sup b a xr r c

end Cert.GraphConv.Payload

end
-- ==== Proof.HalvesAt.lean ====
/-
  An output block, entry by entry.

  The output block's buffer is [2,200,128]: two slabs of 200 rows. After a grid point it holds two stores, one per
  slab, slab 1 written last and slab 0 before it. The two rectangles are disjoint, so an entry of slab 1 reads the
  later store's payload and an entry of slab 0 reads the earlier one's. Each payload, read at (0, r, c), is the
  specification's output row for row r of the 200 feature rows the body loaded, row r of the adjacency block it
  used, the scratch as the support and the bias block.
-/
import proofs.«175795_g70068096467658_cont_9to1_m_110_7_alg».proof.Proof.IdealPieces
import proofs.«175795_g70068096467658_cont_9to1_m_110_7_alg».proof.Proof.PayloadAt

noncomputable section

namespace Cert.KernelIdeal.Hand

open Cert.KernelIdeal Cert.KernelIdeal.Gen Cert.GraphConv
open Idealize.ShloMosaic Idealize.ShloMosaic.ValueIdx

/-- Slab 1's rectangle places its entry (0, r, c) at (1, r, c) of the buffer. -/
theorem upper_emb (r : Fin 200) (c' : Fin 128) :
    (Rect.unit (s := S2x200x128) ![1, 0, 0] S1x200x128.size inb_S2x200x128_S1x200x128_1_0_0).emb (ix3 (0 : Fin 1) r c')
      = ix3 (1 : Fin 2) r c' := by
  funext a
  refine Fin.ext ?_
  match a with
  | ⟨0, _⟩ => rfl
  | ⟨1, _⟩ => exact (Nat.zero_add _).trans (Nat.one_mul _)
  | ⟨2, _⟩ => exact (Nat.zero_add _).trans (Nat.one_mul _)

/-- Slab 0's rectangle places its entry (0, r, c) at (0, r, c) of the buffer. -/
theorem lower_emb (r : Fin 200) (c' : Fin 128) :
    (Rect.unit (s := S2x200x128) ![0, 0, 0] S1x200x128.size inb_S2x200x128_S1x200x128_0_0_0).emb (ix3 (0 : Fin 1) r c')
      = ix3 (0 : Fin 2) r c' := by
  funext a
  refine Fin.ext ?_
  match a with
  | ⟨0, _⟩ => rfl
  | ⟨1, _⟩ => exact (Nat.zero_add _).trans (Nat.one_mul _)
  | ⟨2, _⟩ => exact (Nat.zero_add _).trans (Nat.one_mul _)

/-- An entry of slab 0 is outside slab 1's rectangle: its first coordinate is 0, the rectangle starts at 1. -/
theorem lower_not_mem_upper (r : Fin 200) (c' : Fin 128) :
    ix3 (0 : Fin 2) r c' ∉ (Rect.unit (s := S2x200x128) ![1, 0, 0] S1x200x128.size inb_S2x200x128_S1x200x128_1_0_0).set := by
  rw [Rect.mem_set_unit]
  intro h
  have h0 : (1 : Nat) ≤ 0 := (h 0).1
  exact absurd h0 (Nat.not_succ_le_zero 0)

/-- Slab 1 of the buffer, entry (r, c): the output row of the feature rows at the point's second offset and the
    second adjacency block. -/
theorem halves_upper (i : grid0.Coords) (x0 : Vec Ideal S10000x128 .f32) (x2 : Vec Ideal S1x128 .f32)
    (x3 x4 : Vec Ideal S1x200x10000 .f32) (xs : Vec Ideal S10000x128 .bf16) (r : Fin 200) (c' : Fin 128) :
    View.canon (halves (F := Ideal) i x0 x2 x3 x4 xs) (ix3 (1 : Fin 2) r c')
      = rowOut
          (fun c'' => View.ld x0 (Rect.unit (s := S10000x128) (k0_off1 i 5000#32) S200x128.size (k0_off1_inb i 1)) (ix2 r c''))
          (fun k => x4 (ix3 (0 : Fin 1) r k)) (fun k c'' => xs (ix2 k c'')) (fun c'' => x2 (ix2 (0 : Fin 1) c'')) c' := by
  unfold halves
  rw [← upper_emb r c', View.canon_cons_emb]
  exact Payload.second_half_at xs x2 x4 _ r c'

/-- Slab 0 of the buffer, entry (r, c): the output row of the feature rows at the point's first offset and the
    first adjacency block. -/
theorem halves_lower (i : grid0.Coords) (x0 : Vec Ideal S10000x128 .f32) (x2 : Vec Ideal S1x128 .f32)
    (x3 x4 : Vec Ideal S1x200x10000 .f32) (xs : Vec Ideal S10000x128 .bf16) (r : Fin 200) (c' : Fin 128) :
    View.canon (halves (F := Ideal) i x0 x2 x3 x4 xs) (ix3 (0 : Fin 2) r c')
      = rowOut
          (fun c'' => View.ld x0 (Rect.unit (s := S10000x128) (k0_off1 i 0#32) S200x128.size (k0_off1_inb i 0)) (ix2 r c''))
          (fun k => x3 (ix3 (0 : Fin 1) r k)) (fun k c'' => xs (ix2 k c'')) (fun c'' => x2 (ix2 (0 : Fin 1) c'')) c' := by
  unfold halves
  rw [View.canon_cons_of_not_mem, ← lower_emb r c', View.canon_cons_emb]
  · exact Payload.first_half_at xs x2 x3 _ r c'
  · exact lower_not_mem_upper r c'

end Cert.KernelIdeal.Hand

end
-- ==== Proof.BlocksAt.lean ====
/-
  What each window's block at a grid point is, entry by entry, in terms of the argument arrays.

  The region's six windows read four arrays: the node features and the weight as launched, the bias as a one-row
  matrix, and the adjacency cut into two stacked halves of 5000 rows. Point `t` of the 25 sees the whole features,
  weight and bias, rows `200 t … 200 t + 199` of each half of the adjacency, and writes rows `200 t … 200 t + 199` of
  each half of the output. Every statement below is one such sentence with the row arithmetic spelled out.
-/
import proofs.«175795_g70068096467658_cont_9to1_m_110_7_alg».proof.Proof.IdealSetup
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What the region finds in its arrays

Two of the six windows sit on arguments no operation before the region writes; the other arrays are the adjacency
cut into two stacked halves and the bias as a one-row matrix, both re-layings that keep the row-major order. -/

/-- The node features are the launch contents. -/
theorem V_arg0 (c : Dev nD) : V m c main_arg0 = m ((c.tc : Thread nD τ).loc main_arg0) := by
  dsimp only [V, W1, hostOps0]; after_results

/-- The weight is the launch contents. -/
theorem V_arg2 (c : Dev nD) : V m c main_arg2 = m ((c.tc : Thread nD τ).loc main_arg2) := by
  dsimp only [V, W1, hostOps0]; after_results

/-- The stacked halves are the adjacency re-laid. -/
theorem V_v0 (c : Dev nD) : (V m c main_v0 : S2x5000x10000.Idx → Elt F .f32)
    = shapeCast S2x5000x10000 (m ((c.tc : Thread nD τ).loc main_arg1) : S10000x10000.Idx → Elt F .f32) shapeCasts_S10000x10000_S2x5000x10000 := by
  dsimp only [V, W1, hostOps0]; after_results; rfl

/-- The one-row matrix is the bias re-laid. -/
theorem V_v1 (c : Dev nD) : (V m c main_v1 : S1x128.Idx → Elt F .f32)
    = shapeCast S1x128 (m ((c.tc : Thread nD τ).loc main_arg3) : S128.Idx → Elt F .f32) shapeCasts_S128_S1x128 := by
  dsimp only [V, W1, hostOps0]; after_results; rfl

/-! ## The re-laid arrays at an index -/

/-- Row `r` of half `h` is row `5000 h + r` of the adjacency. -/
theorem V_v0_apply (c : Dev nD) (h : Fin 2) (r : Fin 5000) (k : Fin 10000) :
    (V m c main_v0 : S2x5000x10000.Idx → Elt F .f32) (ix3 h r k)
      = (m ((c.tc : Thread nD τ).loc main_arg1) : S10000x10000.Idx → Elt F .f32) (ix2 (⟨5000 * h.val + r.val, by omega⟩ : Fin 10000) k) := by
  rw [V_v0]
  refine shapeCast_apply (s := S10000x10000) (t := S2x5000x10000) _ _ _ _ ?_
  rw [Shape.rowMajor_val_two, Shape.rowMajor_val_three]
  show (5000 * h.val + r.val) * 10000 + k.val = (h.val * 5000 + r.val) * 10000 + k.val
  omega

/-- The one row of the bias matrix is the bias. -/
theorem V_v1_apply (c : Dev nD) (u : Fin 1) (c' : Fin 128) :
    (V m c main_v1 : S1x128.Idx → Elt F .f32) (ix2 u c')
      = (m ((c.tc : Thread nD τ).loc main_arg3) : S128.Idx → Elt F .f32) (ix1 c') := by
  rw [V_v1]
  exact shapeCast_a_1a_apply _ _ u c'

/-! ## The windows' blocks

A block's coordinate in its array is, on every axis, the block index times the block's size plus the coordinate
inside the block. The block indices are decided once over the 25 points; the rest is arithmetic. -/

/-- There are 25 points. -/
theorem point_lt (t : Fin cfg0.N) : t.val < 25 := Nat.lt_of_lt_of_eq t.isLt N_0

/-- The block indices at every point: the whole-array windows stay at block 0; the two adjacency windows and the
    output window move along the rows with the point, the second adjacency window in the second half; and the
    point's one coordinate is its number. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 1 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0
    ∧ ((grid0.coords t) 0).val = t.val :=
  (by decide +kernel : ∀ t : Fin grid0.N, _)

/-- The features window's block is the features. -/
theorem iblk0_apply (c : Dev nD) (t : Fin cfg0.N) (p : Fin 10000) (q : Fin 128) :
    (iblk m c 0 t : S10000x128.Idx → Elt F .f32) (ix2 p q)
      = (m ((c.tc : Thread nD τ).loc main_arg0) : S10000x128.Idx → Elt F .f32) (ix2 p q) := by
  obtain ⟨e0, e1, -⟩ := idx_facts t
  unfold iblk
  rw [View.read_apply]
  show V m c main_arg0 (((cfg0.win 0).blk t).view.emb (ix2 p q)) = _
  rw [V_arg0]
  congr 1
  funext a; apply Fin.ext
  match a with
  | ⟨0, _⟩ => show win0_0.index t (0 : Fin 2) * 10000 + 1 * p.val = p.val; rw [e0]; omega
  | ⟨1, _⟩ => show win0_0.index t (1 : Fin 2) * 128 + 1 * q.val = q.val; rw [e1]; omega

theorem iblk0_eq (c : Dev nD) (t : Fin cfg0.N) :
    (iblk m c 0 t : S10000x128.Idx → Elt F .f32) = m ((c.tc : Thread nD τ).loc main_arg0) := by
  funext j; rw [eq_ix2 j]; exact iblk0_apply m c t _ _

/-- The weight window's block is the weight. -/
theorem iblk1_apply (c : Dev nD) (t : Fin cfg0.N) (p : Fin 128) (q : Fin 128) :
    (iblk m c 1 t : S128x128.Idx → Elt F .f32) (ix2 p q)
      = (m ((c.tc : Thread nD τ).loc main_arg2) : S128x128.Idx → Elt F .f32) (ix2 p q) := by
  obtain ⟨-, -, e0, e1, -⟩ := idx_facts t
  unfold iblk
  rw [View.read_apply]
  show V m c main_arg2 (((cfg0.win 1).blk t).view.emb (ix2 p q)) = _
  rw [V_arg2]
  congr 1
  funext a; apply Fin.ext
  match a with
  | ⟨0, _⟩ => show win0_1.index t (0 : Fin 2) * 128 + 1 * p.val = p.val; rw [e0]; omega
  | ⟨1, _⟩ => show win0_1.index t (1 : Fin 2) * 128 + 1 * q.val = q.val; rw [e1]; omega

theorem iblk1_eq (c : Dev nD) (t : Fin cfg0.N) :
    (iblk m c 1 t : S128x128.Idx → Elt F .f32) = m ((c.tc : Thread nD τ).loc main_arg2) := by
  funext j; rw [eq_ix2 j]; exact iblk1_apply m c t _ _

/-- The bias window's block is the bias as one row. -/
theorem iblk2_apply (c : Dev nD) (t : Fin cfg0.N) (u : Fin 1) (c' : Fin 128) :
    (iblk m c 2 t : S1x128.Idx → Elt F .f32) (ix2 u c')
      = (m ((c.tc : Thread nD τ).loc main_arg3) : S128.Idx → Elt F .f32) (ix1 c') := by
  obtain ⟨-, -, -, -, e0, e1, -⟩ := idx_facts t
  unfold iblk
  rw [View.read_apply]
  show (V m c main_v1 : S1x128.Idx → Elt F .f32) (((cfg0.win 2).blk t).view.emb (ix2 u c')) = _
  have he : ((cfg0.win 2).blk t).view.emb (ix2 u c') = (ix2 u c' : S1x128.Idx) := by
    funext a; apply Fin.ext
    match a with
    | ⟨0, _⟩ => show win0_2.index t (0 : Fin 2) * 1 + 1 * u.val = u.val; rw [e0]; omega
    | ⟨1, _⟩ => show win0_2.index t (1 : Fin 2) * 128 + 1 * c'.val = c'.val; rw [e1]; omega
  rw [he]
  exact V_v1_apply m c u c'

/-- The first adjacency window's block at point `t` is rows `200 t … 200 t + 199` of the adjacency. -/
theorem iblk3_apply (c : Dev nD) (t : Fin cfg0.N) (u : Fin 1) (r : Fin 200) (k : Fin 10000) :
    (iblk m c 3 t : S1x200x10000.Idx → Elt F .f32) (ix3 u r k)
      = (m ((c.tc : Thread nD τ).loc main_arg1) : S10000x10000.Idx → Elt F .f32)
          (ix2 (⟨200 * t.val + r.val, by have := point_lt t; omega⟩ : Fin 10000) k) := by
  obtain ⟨-, -, -, -, -, -, e0, e1, e2, -⟩ := idx_facts t
  have ht := point_lt t
  unfold iblk
  rw [View.read_apply]
  show (V m c main_v0 : S2x5000x10000.Idx → Elt F .f32) (((cfg0.win 3).blk t).view.emb (ix3 u r k)) = _
  have he : ((cfg0.win 3).blk t).view.emb (ix3 u r k)
      = (ix3 (0 : Fin 2) (⟨200 * t.val + r.val, by omega⟩ : Fin 5000) k : S2x5000x10000.Idx) := by
    funext a; apply Fin.ext
    match a with
    | ⟨0, _⟩ => show win0_3.index t (0 : Fin 3) * 1 + 1 * u.val = 0; rw [e0]; omega
    | ⟨1, _⟩ => show win0_3.index t (1 : Fin 3) * 200 + 1 * r.val = 200 * t.val + r.val; rw [e1]; omega
    | ⟨2, _⟩ => show win0_3.index t (2 : Fin 3) * 10000 + 1 * k.val = k.val; rw [e2]; omega
  rw [he, V_v0_apply]
  congr 2
  apply Fin.ext
  show 5000 * 0 + (200 * t.val + r.val) = 200 * t.val + r.val
  omega

/-- The second adjacency window's block at point `t` is rows `5000 + 200 t … 5000 + 200 t + 199`. -/
theorem iblk4_apply (c : Dev nD) (t : Fin cfg0.N) (u : Fin 1) (r : Fin 200) (k : Fin 10000) :
    (iblk m c 4 t : S1x200x10000.Idx → Elt F .f32) (ix3 u r k)
      = (m ((c.tc : Thread nD τ).loc main_arg1) : S10000x10000.Idx → Elt F .f32)
          (ix2 (⟨5000 + 200 * t.val + r.val, by have := point_lt t; omega⟩ : Fin 10000) k) := by
  obtain ⟨-, -, -, -, -, -, -, -, -, e0, e1, e2, -⟩ := idx_facts t
  have ht := point_lt t
  unfold iblk
  rw [View.read_apply]
  show (V m c main_v0 : S2x5000x10000.Idx → Elt F .f32) (((cfg0.win 4).blk t).view.emb (ix3 u r k)) = _
  have he : ((cfg0.win 4).blk t).view.emb (ix3 u r k)
      = (ix3 (1 : Fin 2) (⟨200 * t.val + r.val, by omega⟩ : Fin 5000) k : S2x5000x10000.Idx) := by
    funext a; apply Fin.ext
    match a with
    | ⟨0, _⟩ => show win0_4.index t (0 : Fin 3) * 1 + 1 * u.val = 1; rw [e0]; omega
    | ⟨1, _⟩ => show win0_4.index t (1 : Fin 3) * 200 + 1 * r.val = 200 * t.val + r.val; rw [e1]; omega
    | ⟨2, _⟩ => show win0_4.index t (2 : Fin 3) * 10000 + 1 * k.val = k.val; rw [e2]; omega
  rw [he, V_v0_apply]
  congr 2
  apply Fin.ext
  show 5000 * 1 + (200 * t.val + r.val) = 5000 + 200 * t.val + r.val
  omega

/-! ## The rows of the features the body loads by a computed offset

Besides the whole features the body loads, at point `t`, the 200 rows from `200 t` and the 200 rows from
`5000 + 200 t`: the rows of the two output blocks it is about to write. -/

/-- The rows for the first half. -/
theorem ld_rows0 (x0 : Vec F S10000x128 .f32) (t : Fin cfg0.N) (r : Fin 200) (c' : Fin 128) :
    View.ld x0 (Rect.unit (s := S10000x128) (k0_off1 (grid0.coords t) 0#32) S200x128.size (Gen.k0_off1_inb (grid0.coords t) 0)) (ix2 r c')
      = x0 (ix2 (⟨200 * t.val + r.val, by have := point_lt t; omega⟩ : Fin 10000) c') := by
  have hc : ((grid0.coords t) 0).val = t.val := (idx_facts t).2.2.2.2.2.2.2.2.2.2.2.2.2.2.2
  have hk : k0_off1 (grid0.coords t) 0#32 = ![5000 * 0 + 200 * ((grid0.coords t) 0).val, 0] := Gen.k0_off1_eq (grid0.coords t) 0
  show x0 _ = x0 _
  congr 1
  funext a; apply Fin.ext
  match a with
  | ⟨0, _⟩ =>
    show k0_off1 (grid0.coords t) 0#32 0 + 1 * r.val = 200 * t.val + r.val
    rw [hk]
    show 5000 * 0 + 200 * ((grid0.coords t) 0).val + 1 * r.val = 200 * t.val + r.val
    rw [hc]; omega
  | ⟨1, _⟩ =>
    show k0_off1 (grid0.coords t) 0#32 1 + 1 * c'.val = c'.val
    rw [hk]
    show 0 + 1 * c'.val = c'.val
    omega

/-- The rows for the second half. -/
theorem ld_rows1 (x0 : Vec F S10000x128 .f32) (t : Fin cfg0.N) (r : Fin 200) (c' : Fin 128) :
    View.ld x0 (Rect.unit (s := S10000x128) (k0_off1 (grid0.coords t) 5000#32) S200x128.size (Gen.k0_off1_inb (grid0.coords t) 1)) (ix2 r c')
      = x0 (ix2 (⟨5000 + 200 * t.val + r.val, by have := point_lt t; omega⟩ : Fin 10000) c') := by
  have hc : ((grid0.coords t) 0).val = t.val := (idx_facts t).2.2.2.2.2.2.2.2.2.2.2.2.2.2.2
  have hk : k0_off1 (grid0.coords t) 5000#32 = ![5000 * 1 + 200 * ((grid0.coords t) 0).val, 0] := Gen.k0_off1_eq (grid0.coords t) 1
  show x0 _ = x0 _
  congr 1
  funext a; apply Fin.ext
  match a with
  | ⟨0, _⟩ =>
    show k0_off1 (grid0.coords t) 5000#32 0 + 1 * r.val = 5000 + 200 * t.val + r.val
    rw [hk]
    show 5000 * 1 + 200 * ((grid0.coords t) 0).val + 1 * r.val = 5000 + 200 * t.val + r.val
    rw [hc]; omega
  | ⟨1, _⟩ =>
    show k0_off1 (grid0.coords t) 5000#32 1 + 1 * c'.val = c'.val
    rw [hk]
    show 0 + 1 * c'.val = c'.val
    omega

/-! ## The output window's block

Point `t` writes rows `200 t … 200 t + 199` of both halves of the output; the 25 blocks tile the array. -/

/-- Where an entry of the output block at point `t` sits in the output. -/
theorem oblk_emb (t : Fin cfg0.N) (y : S2x200x128.Idx) :
    ((cfg0.win 5).blk t).view.emb y
      = (ix3 (y 0) (⟨200 * t.val + (y 1).val, by have := point_lt t; have h1 : (y 1).val < 200 := (y 1).isLt; omega⟩ : Fin 5000) (y 2) : S2x5000x128.Idx) := by
  obtain ⟨-, -, -, -, -, -, -, -, -, -, -, -, e0, e1, e2, -⟩ := idx_facts t
  funext a; apply Fin.ext
  match a with
  | ⟨0, _⟩ => show win0_5.index t (0 : Fin 3) * 2 + 1 * (y 0).val = (y 0).val; rw [e0]; omega
  | ⟨1, _⟩ => show win0_5.index t (1 : Fin 3) * 200 + 1 * (y 1).val = 200 * t.val + (y 1).val; rw [e1]; omega
  | ⟨2, _⟩ => show win0_5.index t (2 : Fin 3) * 128 + 1 * (y 2).val = (y 2).val; rw [e2]; omega

/-- The same by coordinates. -/
theorem oblk_emb_ix (t : Fin cfg0.N) (h : Fin 2) (r : Fin 200) (c' : Fin 128) :
    ((cfg0.win 5).blk t).view.emb (ix3 h r c' : S2x200x128.Idx)
      = (ix3 h (⟨200 * t.val + r.val, by have := point_lt t; omega⟩ : Fin 5000) c' : S2x5000x128.Idx) :=
  oblk_emb t (ix3 h r c')

/-- An index of the output is in point `t`'s block iff each coordinate is in the block's range on its axis. -/
theorem mem_oblk (t : Fin cfg0.N) (j : S2x5000x128.Idx) :
    j ∈ ((cfg0.win 5).blk t).view.set ↔ ∀ a : Fin 3, win0_5.index t a * S2x200x128.size a ≤ (j a).val ∧ (j a).val < win0_5.index t a * S2x200x128.size a + S2x200x128.size a := by
  show j ∈ ((View.whole main_v2).slice (win0_5.rect t)).set ↔ _
  rw [View.set_slice_whole, Rect.mem_set_unit]
  exact Iff.rfl

/-- Which is: its row is one of the block's 200. -/
theorem mem_oblk_iff (t : Fin cfg0.N) (j : S2x5000x128.Idx) :
    j ∈ ((cfg0.win 5).blk t).view.set ↔ 200 * t.val ≤ (j 1).val ∧ (j 1).val < 200 * t.val + 200 := by
  rw [mem_oblk]
  obtain ⟨-, -, -, -, -, -, -, -, -, -, -, -, e0, e1, e2, -⟩ := idx_facts t
  constructor
  · intro h
    have h1 : win0_5.index t (1 : Fin 3) * 200 ≤ (j 1).val ∧ (j 1).val < win0_5.index t (1 : Fin 3) * 200 + 200 := h 1
    rw [e1] at h1; omega
  · intro h a
    match a with
    | ⟨0, _⟩ =>
      show win0_5.index t (0 : Fin 3) * 2 ≤ (j 0).val ∧ (j 0).val < win0_5.index t (0 : Fin 3) * 2 + 2
      have h0 : (j 0).val < 2 := (j 0).isLt
      rw [e0]; omega
    | ⟨1, _⟩ =>
      show win0_5.index t (1 : Fin 3) * 200 ≤ (j 1).val ∧ (j 1).val < win0_5.index t (1 : Fin 3) * 200 + 200
      rw [e1]; omega
    | ⟨2, _⟩ =>
      show win0_5.index t (2 : Fin 3) * 128 ≤ (j 2).val ∧ (j 2).val < win0_5.index t (2 : Fin 3) * 128 + 128
      have h2 : (j 2).val < 128 := (j 2).isLt
      rw [e2]; omega

/-- The point whose block holds row `(j 1)` of the output. -/
def pointOf (j : S2x5000x128.Idx) : Fin cfg0.N :=
  ⟨(j 1).val / 200, by
    have h1 : (j 1).val < 5000 := (j 1).isLt
    exact Nat.lt_of_lt_of_eq (by omega : (j 1).val / 200 < 25) N_0.symm⟩

theorem pointOf_val (j : S2x5000x128.Idx) : (pointOf j).val = (j 1).val / 200 := rfl

/-- Every index of the output lies in some point's block. -/
theorem mem_oblk_pointOf (j : S2x5000x128.Idx) : j ∈ ((cfg0.win 5).blk (pointOf j)).view.set := by
  rw [mem_oblk_iff, pointOf_val]
  omega

end Cert.KernelIdeal.Hand

end
-- ==== Proof.IdealArray.lean ====
/-
  From the 25 output blocks to the output array.

  The region's one output window lies on the [2, 5000, 128] array of the two halves. Its block is [2, 200, 128]; at
  point t of the 25 the block is rows 200 t … 200 t + 199 of both halves, every column: entry (h, r, q) of the
  block is entry (h, 200 t + r, q) of the array. Every point writes its block back, whole (the window is never
  cut). Row r' of either half lies in the block of point r' / 200, so the 25 blocks cover the array; hence, if what
  each point leaves in the block's buffer is the matching block of one function G of the array's index, the array
  ends holding G.
-/
import proofs.«175795_g70068096467658_cont_9to1_m_110_7_alg».proof.Proof.IdealBody
import proofs.«175795_g70068096467658_cont_9to1_m_110_7_alg».proof.Proof.BlocksAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- If the buffer after point `t` holds, at (h, r, q), the value of `G` at (h, 200 t + r, q), then what point `t`
    writes back is block `t` of `G`: the whole buffer is written, and its entry (h, r, q) lands on entry
    (h, 200 t + r, q) of the array. -/
theorem flushed_of_blocks (c : Dev nD) (G : Buf (Elt F) ((c : Thread nD τ).loc main_v2))
    (hblock : ∀ (t : Fin cfg0.N) (y : S2x200x128.Idx),
      out5 m c t y = G (ix3 (y 0) (⟨200 * t.val + (y 1).val, by have := point_lt t; have h1 : (y 1).val < 200 := (y 1).isLt; omega⟩ : Fin 5000) (y 2)))
    (t : Fin cfg0.N) :
    (dats m 0 c).flushed 5 t = ((cfg0.win 5).blk t).view.read (Elt F) G := by
  show (cfg0.win 5).cut (grid0.coords t) ((dats m 0 c).after 5 t) = _
  rw [after5]
  funext y
  rw [View.read_apply]
  exact (hblock t y).trans (congrArg G (oblk_emb t y).symm)

/-- THE OUTPUT ARRAY after the region is `G`, once every point's buffer is the matching block of `G`: every point
    writes back, and every index of the array is in the block of the point that owns its row. -/
theorem final_of_blocks (c : Dev nD) (G : Buf (Elt F) ((c : Thread nD τ).loc main_v2))
    (hblock : ∀ (t : Fin cfg0.N) (y : S2x200x128.Idx),
      out5 m c t y = G (ix3 (y 0) (⟨200 * t.val + (y 1).val, by have := point_lt t; have h1 : (y 1).val < 200 := (y 1).isLt; omega⟩ : Fin 5000) (y 2))) :
    (dats m 0 c).arrAt 5 cfg0.N = G :=
  (dats m 0 c).arrAt_eq_of_cover 5 G (fun t _ => flushed_of_blocks m c G hblock t)
    (fun i => ⟨pointOf i, flush0_5 (pointOf i), mem_oblk_pointOf i⟩)

end Cert.KernelIdeal.Hand

end
-- ==== Proof.TailAt.lean ====
import proofs.«175795_g70068096467658_cont_9to1_m_110_7_alg».proof.Proof.Gen.KernelIdeal
import Idealize.ShloMosaic.Lib.Pipeline.Value
import Idealize.ShloMosaic.Lib.ValueIdx

/-!
  The last re-laying, read at an index.

  The program's final operation takes the [2, 5000, 128] array the two halves were written into and lays the same
  elements out, in row-major order, as a [10000, 128] array. Row-major order of [2, 5000, 128] puts entry (h, r, q)
  at position (h·5000 + r)·128 + q, and row-major order of [10000, 128] puts entry (p, q) at position p·128 + q; the
  two agree exactly when p = 5000·h + r, that is h = p / 5000 and r = p % 5000. So the re-laid array at (p, q) is the
  operand at (p / 5000, p % 5000, q), and an operand whose entry (h, r, q) is G(5000·h + r, q) re-lays to G itself.
  Nothing here depends on what the elements are.
-/

noncomputable section

namespace Cert.GraphConv.Tail

open Cert.KernelIdeal Idealize.ShloMosaic Idealize.ShloMosaic.ValueIdx

variable {α : Type}

/-- The re-laid array at (p, q) is the operand at (p / 5000, p % 5000, q). -/
theorem relaid_apply (out : S2x5000x128.Idx → α) (hc : S2x5000x128.ShapeCasts S10000x128) (p : Fin 10000) (q : Fin 128) :
    shapeCast S10000x128 out hc (ix2 p q)
      = out (ix3 (⟨p.val / 5000, by omega⟩ : Fin 2) (⟨p.val % 5000, Nat.mod_lt _ (by decide)⟩ : Fin 5000) q) :=
  shapeCast_apply out hc _ _ (by
    rw [Shape.rowMajor_val_three, Shape.rowMajor_val_two]
    show (p.val / 5000 * 5000 + p.val % 5000) * 128 + q.val = p.val * 128 + q.val
    have := Nat.div_add_mod p.val 5000
    omega)

/-- An operand that holds, at (h, r, q), the value of `G` at row 5000·h + r and column q re-lays to `G`. -/
theorem relaid_eq_of_halves (out : S2x5000x128.Idx → α) (hc : S2x5000x128.ShapeCasts S10000x128)
    (G : (⟨2, ![10000, 128]⟩ : Shape).Idx → α)
    (hG : ∀ (h : Fin 2) (r : Fin 5000) (q : Fin 128),
      out (ix3 h r q) = G (ix2 (⟨5000 * h.val + r.val, by omega⟩ : Fin 10000) q)) :
    shapeCast S10000x128 out hc = G := by
  funext i
  obtain ⟨p, q, rfl⟩ : ∃ (p : Fin 10000) (q : Fin 128), i = ix2 p q := ⟨i 0, i 1, eq_ix2 i⟩
  rw [relaid_apply, hG]
  exact congrArg (fun a => G (ix2 a q)) (Fin.ext (Nat.div_add_mod p.val 5000))

end Cert.GraphConv.Tail

end
-- ==== Proof.IdealValue.lean ====
/-
  The kernel's result, entry by entry, at the exact extended reals.

  At every grid point t the output block's buffer holds rows 200·t ‥ 200·t+199 of the layer's output in its first
  half and rows 5000+200·t ‥ 5000+200·t+199 in its second half: each half is one stored payload, a row of which
  depends on the same row of the features, the same row of the adjacency, the bias and the whole support matrix —
  and the scratch holds exactly that support matrix from the first point on. The 25 blocks tile the output array,
  and the last re-laying stacks its two halves: the result buffer is the layer of the four argument arrays.
-/
import proofs.«175795_g70068096467658_cont_9to1_m_110_7_alg».proof.Proof.IdealPieces
import proofs.«175795_g70068096467658_cont_9to1_m_110_7_alg».proof.Proof.HalvesAt
import proofs.«175795_g70068096467658_cont_9to1_m_110_7_alg».proof.Proof.BlocksAt
import proofs.«175795_g70068096467658_cont_9to1_m_110_7_alg».proof.Proof.IdealArray
import proofs.«175795_g70068096467658_cont_9to1_m_110_7_alg».proof.Proof.TailAt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.GraphConv Cert.GraphConv.Payload Idealize.ShloMosaic.ValueIdx

variable (m : (ℓ : Loc nD τ sig) → Buf (Elt Ideal) ℓ)

/-- The four argument arrays as launched, on core `c`. -/
abbrev feats (c : Dev nD) : S10000x128.Idx → EReal := m ((c.tc : Thread nD τ).loc main_arg0)
abbrev adjacency (c : Dev nD) : S10000x10000.Idx → EReal := m ((c.tc : Thread nD τ).loc main_arg1)
abbrev weights (c : Dev nD) : S128x128.Idx → EReal := m ((c.tc : Thread nD τ).loc main_arg2)
abbrev biasRow (c : Dev nD) : S128.Idx → EReal := m ((c.tc : Thread nD τ).loc main_arg3)

/-- The layer of core `c`'s arguments. -/
abbrev layerOf (c : Dev nD) : (⟨2, ![10000, 128]⟩ : Shape).Idx → EReal :=
  layer (feats m c) (adjacency m c) (weights m c) (biasRow m c)

theorem layerOf_at (c : Dev nD) (p : Fin 10000) (q : Fin 128) :
    layerOf m c (ix2 p q) = rowOut (fun c' => feats m c (ix2 p c')) (fun k => adjacency m c (ix2 p k))
      (support (feats m c) (weights m c)) (fun c' => biasRow m c (ix1 c')) q := rfl

/-- A row of the output depends on its ingredients entry by entry. -/
theorem rowOut_congr {xr xr' : Fin 128 → EReal} {ar ar' : Fin 10000 → EReal} {sup sup' : Fin 10000 → Fin 128 → EReal}
    {b b' : Fin 128 → EReal} (h1 : ∀ c, xr c = xr' c) (h2 : ∀ k, ar k = ar' k) (h3 : ∀ k c, sup k c = sup' k c)
    (h4 : ∀ c, b c = b' c) (c : Fin 128) : rowOut xr ar sup b c = rowOut xr' ar' sup' b' c := by
  rw [funext h1, funext h2, (funext fun k => funext (h3 k) : sup = sup'), funext h4]

/-- The scratch after the first point is the support matrix of the arguments. -/
theorem supAfter_at (c : Dev nD) (k : Fin 10000) (c' : Fin 128) :
    (supAfter m c : S10000x128.Idx → EReal) (ix2 k c') = support (feats m c) (weights m c) k c' := by
  unfold supAfter
  rw [soutFirst_eq]
  refine (support_at _ _ k c').trans ?_
  rw [iblk0_eq, iblk1_eq]

/-- The first half of the block after point `t`: rows 200·t + r of the layer. -/
theorem block_lower (c : Dev nD) (t : Fin cfg0.N) (xs : Vec Ideal S10000x128 .bf16)
    (hxs : ∀ k c', xs (ix2 k c') = support (feats m c) (weights m c) k c') (r : Fin 200) (c' : Fin 128) :
    View.canon (halves (F := Ideal) (grid0.coords t) (iblk m c 0 t) (iblk m c 2 t) (iblk m c 3 t) (iblk m c 4 t) xs) (ix3 (0 : Fin 2) r c')
      = layerOf m c (ix2 (⟨200 * t.val + r.val, by have := point_lt t; omega⟩ : Fin 10000) c') := by
  refine (halves_lower _ _ _ _ _ _ r c').trans ?_
  rw [layerOf_at]
  refine rowOut_congr (fun c'' => ?_) (fun k => ?_) hxs (fun c'' => ?_) c'
  · rw [ld_rows0, iblk0_apply]
  · exact iblk3_apply m c t 0 r k
  · exact iblk2_apply m c t 0 c''

/-- The second half: rows 5000 + 200·t + r of the layer. -/
theorem block_upper (c : Dev nD) (t : Fin cfg0.N) (xs : Vec Ideal S10000x128 .bf16)
    (hxs : ∀ k c', xs (ix2 k c') = support (feats m c) (weights m c) k c') (r : Fin 200) (c' : Fin 128) :
    View.canon (halves (F := Ideal) (grid0.coords t) (iblk m c 0 t) (iblk m c 2 t) (iblk m c 3 t) (iblk m c 4 t) xs) (ix3 (1 : Fin 2) r c')
      = layerOf m c (ix2 (⟨5000 + 200 * t.val + r.val, by have := point_lt t; omega⟩ : Fin 10000) c') := by
  refine (halves_upper _ _ _ _ _ _ r c').trans ?_
  rw [layerOf_at]
  refine rowOut_congr (fun c'' => ?_) (fun k => ?_) hxs (fun c'' => ?_) c'
  · rw [ld_rows1, iblk0_apply]
  · exact iblk4_apply m c t 0 r k
  · exact iblk2_apply m c t 0 c''

/-- The output array the region leaves: the layer's rows, the lower 5000 in the first half. -/
def outArr (c : Dev nD) : S2x5000x128.Idx → EReal := fun j =>
  layerOf m c (ix2 (⟨5000 * (j 0).val + (j 1).val, by
    have h0 : (j 0).val < 2 := (j 0).isLt; have h1 : (j 1).val < 5000 := (j 1).isLt; omega⟩ : Fin 10000) (j 2))

/-- The block after point `t`, entry by entry, is the output array's block there. -/
theorem out5_at (c : Dev nD) (t : Fin cfg0.N) (y : S2x200x128.Idx) :
    (out5 m c t : S2x200x128.Idx → EReal) y
      = outArr m c (ix3 (y 0) (⟨200 * t.val + (y 1).val, by have := point_lt t; have h1 : (y 1).val < 200 := (y 1).isLt; omega⟩ : Fin 5000) (y 2)) := by
  have hcanon : ∃ xs : Vec Ideal S10000x128 .bf16, (∀ k c', xs (ix2 k c') = support (feats m c) (weights m c) k c') ∧
      out5 m c t = View.canon (halves (F := Ideal) (grid0.coords t) (iblk m c 0 t) (iblk m c 2 t) (iblk m c 3 t) (iblk m c 4 t) xs) := by
    unfold out5
    split
    · refine ⟨k0_pay2 (iblk m c 0 t) (iblk m c 1 t), fun k c' => ?_, outFirst_eq ..⟩
      refine (support_at _ _ k c').trans ?_
      rw [iblk0_eq, iblk1_eq]
    · exact ⟨supAfter m c, supAfter_at m c, outLater_eq ..⟩
  obtain ⟨xs, hxs, e⟩ := hcanon
  rw [e]
  obtain ⟨h, r, c', rfl⟩ : ∃ (h : Fin 2) (r : Fin 200) (c' : Fin 128), y = ix3 h r c' := ⟨y 0, y 1, y 2, eq_ix3 y⟩
  fin_cases h
  · refine (block_lower m c t xs hxs r c').trans ?_
    unfold outArr
    exact congrArg (fun p => layerOf m c (ix2 p c')) (Fin.ext (show 200 * t.val + r.val = 5000 * 0 + (200 * t.val + r.val) by omega))
  · refine (block_upper m c t xs hxs r c').trans ?_
    unfold outArr
    exact congrArg (fun p => layerOf m c (ix2 p c')) (Fin.ext (show 5000 + 200 * t.val + r.val = 5000 * 1 + (200 * t.val + r.val) by omega))

/-- After the 25 write-backs the output array holds the layer's rows. -/
theorem final_out (c : Dev nD) : (dats m 0 c).arrAt 5 cfg0.N = outArr m c :=
  final_of_blocks m c (outArr m c) (out5_at m c)

/-- Stacking the two halves: the result buffer holds the layer. -/
theorem result_is_layer (c : Dev nD) (hc : S2x5000x128.ShapeCasts S10000x128) :
    shapeCast S10000x128 ((dats m 0 c).arrAt 5 cfg0.N : S2x5000x128.Idx → EReal) hc = layerOf m c := by
  rw [final_out]
  exact Cert.GraphConv.Tail.relaid_eq_of_halves (outArr m c) hc (layerOf m c) fun h r q => rfl

end Cert.KernelIdeal.Hand

end
-- ==== Proof.RefIsLayer.lean ====
import proofs.«175795_g70068096467658_cont_9to1_m_110_7_alg».proof.Proof.Spec
import proofs.«175795_g70068096467658_cont_9to1_m_110_7_alg».proof.Proof.Gen.ReferenceIdeal.Read
import Idealize.ShloMosaic.Lib.ValueIdx
import Idealize.ShloMosaic.PureOps.Ideal.Laws

/-!
  The reference computes the layer.

  The reference program is a chain of whole-array operations: two matrix products, two scalings by broadcast
  constants, a sum, a row-wise sum of squares, a square root, a floor, a division and the addition of the bias.
  Read at one output entry (r, c), on the extended reals, each of these is the corresponding piece of the layer:

      the first product at (k, c)            is  support(k, c) = Σ_j x(k,j)·w(j,c),
      the scaled sum at (r, c)               is  blend(r, c)   = β·x(r,c) + γ·Σ_k a(r,k)·support(k,c),
      the row-wise sum of squares at r       is  Σ_c' blend(r,c')²  (the sum starts from the zero word, which is 0),
      the floored root, spread along the row is  max(√(that sum), ε),
      the quotient plus the bias at (r, c)   is  out(r, c).

  The only work is bookkeeping of indices: every operand index the program computes from the output index is
  identified with the index built from the coordinates it names. The three float words β, γ, ε stay as words.
-/

noncomputable section

namespace Cert.GraphConv.Ref

open Cert.ReferenceIdeal Cert.ReferenceIdeal.Read Idealize.ShloMosaic Idealize.ShloMosaic.ValueIdx
open scoped BigOperators

/-! ## The operand indices, by coordinates -/

/-- The first product reads the features at (row of the output, contracted coordinate). -/
theorem lidx_v0 (k : Fin 10000) (c j : Fin 128) : lidx_main_v0 (ix2 k c) j = ix2 k j :=
  funext fun a => Fin.ext (by match a with | ⟨0, _⟩ => rfl | ⟨1, _⟩ => rfl)

/-- The first product reads the weight at (contracted coordinate, column of the output). -/
theorem ridx_v0 (k : Fin 10000) (c j : Fin 128) : ridx_main_v0 (ix2 k c) j = ix2 j c :=
  funext fun a => Fin.ext (by match a with | ⟨0, _⟩ => rfl | ⟨1, _⟩ => rfl)

/-- The second product reads the adjacency at (row of the output, contracted coordinate). -/
theorem lidx_v1 (r : Fin 10000) (c : Fin 128) (k : Fin 10000) : lidx_main_v1 (ix2 r c) k = ix2 r k :=
  funext fun a => Fin.ext (by match a with | ⟨0, _⟩ => rfl | ⟨1, _⟩ => rfl)

/-- The second product reads the support at (contracted coordinate, column of the output). -/
theorem ridx_v1 (r : Fin 10000) (c : Fin 128) (k : Fin 10000) : ridx_main_v1 (ix2 r c) k = ix2 k c :=
  funext fun a => Fin.ext (by match a with | ⟨0, _⟩ => rfl | ⟨1, _⟩ => rfl)

/-- The row-wise sum at row r runs over the entries (r, c'). -/
theorem idx_v8 (r : Fin 10000) (c : Fin 128) : idx_main_v8 (ix1 r) c = ix2 r c :=
  funext fun a => Fin.ext (by match a with | ⟨0, _⟩ => rfl | ⟨1, _⟩ => rfl)

/-- Spreading a column of row values along the row: entry (r, c) reads the value of row r. -/
theorem idx_v9_v13 (r : Fin 10000) (c : Fin 128) : idx_main_v9 (idx_main_v13 (ix2 r c)) = ix1 r :=
  funext fun a => Fin.ext (by match a with | ⟨0, _⟩ => rfl)

/-- Spreading the bias down the rows: entry (r, c) reads the bias at c. -/
theorem idx_v15_v16 (r : Fin 10000) (c : Fin 128) : idx_main_v15 (idx_main_v16 (ix2 r c)) = ix1 c :=
  funext fun a => Fin.ext (by match a with | ⟨0, _⟩ => rfl)

/-! ## The stages -/

variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal))
  (x3 : (⟨S128, .f32⟩ : BufTy).Contents (Elt Ideal))

/-- The first matrix product is the support matrix. -/
theorem product_is_support (k : Fin 10000) (c : Fin 128) :
    val_main_v0 (F := Ideal) x0 x2 (ix2 k c) = support x0 x2 k c := by
  rw [val_main_v0_apply]
  simp only [lidx_v0, ridx_v0]
  rfl

/-- The scaled sum of the features and of the aggregated neighbours is the blended row. -/
theorem sum_is_blend (r : Fin 10000) (c : Fin 128) :
    val_main_v6 (F := Ideal) x0 x1 x2 (ix2 r c)
      = rowBlend (fun c => x0 (ix2 r c)) (fun k => x1 (ix2 r k)) (support x0 x2) c := by
  rw [val_main_v6_apply, val_main_v3_apply, val_main_v2_apply, val_main_cst_apply, val_main_v5_apply,
    val_main_v4_apply, val_main_cst_0_apply, val_main_v1_apply]
  simp only [lidx_v1, ridx_v1, product_is_support, Ideal.addf_def, Ideal.mulf_def, Ideal.ofBits_def]
  rfl

/-- The row-wise sum of squares, started from the zero word, is the sum of the squares of the blended row. -/
theorem rowsum_is_squares (r : Fin 10000) :
    val_main_v8 (F := Ideal) x0 x1 x2 (ix1 r)
      = rowSquares (fun c => x0 (ix2 r c)) (fun k => x1 (ix2 r k)) (support x0 x2) := by
  rw [val_main_v8_apply, val_main_cst_1_apply]
  simp only [idx_v8, val_main_v7_apply, sum_is_blend, Ideal.mulf_def, Ideal.ofBits_def, Ideal.ofBits_zero_f32,
    zero_add]
  rfl

/-- The floored root, spread along the row, is the row's divisor. -/
theorem floor_is_divisor (r : Fin 10000) (c : Fin 128) :
    val_main_v13 (F := Ideal) x0 x1 x2 (ix2 r c)
      = rowDivisor (fun c => x0 (ix2 r c)) (fun k => x1 (ix2 r k)) (support x0 x2) := by
  rw [val_main_v13_apply, val_main_v12_apply, val_main_v10_apply, val_main_v9_apply, val_main_v11_apply,
    val_main_cst_2_apply, idx_v9_v13, rowsum_is_squares]
  simp only [Ideal.maximumf_def, Ideal.hostUnary_sqrt_def, Ideal.ofBits_def]
  rfl

/-! ## The reference is the layer -/

theorem ref_is_layer :
    val_main_v17 (F := Ideal) x0 x1 x2 x3 = Cert.GraphConv.layer x0 x1 x2 x3 := by
  funext i
  obtain ⟨p, q, rfl⟩ : ∃ (p : Fin 10000) (q : Fin 128), i = ix2 p q := ⟨i 0, i 1, eq_ix2 i⟩
  rw [val_main_v17_apply, val_main_v14_apply, val_main_v16_apply, val_main_v15_apply, idx_v15_v16,
    sum_is_blend, floor_is_divisor]
  simp only [Ideal.addf_def, Ideal.hostDivf_def]
  rfl

end Cert.GraphConv.Ref

end
-- ==== Proof.lean ====
/-
  A graph-convolution layer: out = normalize_rows(β·x + γ·adj·(x·w)) + bias.

  The kernel computes it in one region of 25 grid points. The first point forms the support matrix x·w in a scratch
  buffer; every point multiplies two 200-row blocks of the adjacency (one from each half of its rows) by that
  matrix, blends with the matching feature rows, divides each row by its floored Euclidean norm and adds the bias.
  The reference is the same formula on whole arrays. At the exact extended reals a change of float format is the
  identity and both matrix products are plain sums, both sides spell the same three float words, in the same order
  of operations: the two results agree entry by entry with no algebraic law beyond reading each side at an index,
  so finiteness of the inputs is never used.

  The frames (each program terminates, faults nowhere, leaves its arguments as launched): the kernel's region is
  run point by point — the first point's branch taken, the later points' not — with the adjacency array, which two
  windows read, lent to them at the two halves of its full share; the same run, stated for any float instance,
  serves the word-level kernel and its idealization. The reference is a straight line of host operations.
-/
import proofs.«175795_g70068096467658_cont_9to1_m_110_7_alg».proof.Defs
import proofs.«175795_g70068096467658_cont_9to1_m_110_7_alg».proof.Proof.Gen.Kernel
import proofs.«175795_g70068096467658_cont_9to1_m_110_7_alg».proof.Proof.Gen.KernelIdeal
import proofs.«175795_g70068096467658_cont_9to1_m_110_7_alg».proof.Proof.Gen.ReferenceIdeal
import proofs.«175795_g70068096467658_cont_9to1_m_110_7_alg».proof.Proof.Gen.Pre_finite_inputs
import proofs.«175795_g70068096467658_cont_9to1_m_110_7_alg».proof.Proof.Gen.ReferenceIdeal.Run
import proofs.«175795_g70068096467658_cont_9to1_m_110_7_alg».proof.Proof.Gen.ReferenceIdeal.Read
import proofs.«175795_g70068096467658_cont_9to1_m_110_7_alg».proof.Proof.BitsBody
import proofs.«175795_g70068096467658_cont_9to1_m_110_7_alg».proof.Proof.BitsLaunch
import proofs.«175795_g70068096467658_cont_9to1_m_110_7_alg».proof.Proof.IdealLaunch
import proofs.«175795_g70068096467658_cont_9to1_m_110_7_alg».proof.Proof.IdealValue
import proofs.«175795_g70068096467658_cont_9to1_m_110_7_alg».proof.Proof.RefIsLayer
import Idealize.ShloMosaic.Adequacy
import Idealize.ShloMosaic.Init

noncomputable section

namespace Cert.Proof

open Idealize.ShloMosaic Idealize.SL.Sem

/-- The word-level kernel runs to the end and leaves its arguments as launched. -/
theorem kernel_frame : Cert.frame_Kernel := fun m ρ _ =>
  (θ_run Cert.Kernel.defs _ _).mono (fun _ h c => (h c).2)
    (Cert.Kernel.Hand.run_of (F := Bits) m ρ (Cert.Kernel.Hand.dats m) (Cert.Kernel.Hand.A_eq m) (Cert.Kernel.Hand.q3 m) (Cert.Kernel.Hand.q4 m) (Cert.Kernel.Hand.q_other m)
      (fun _ _ => rfl) (fun c => (Cert.Kernel.Hand.body_obligation m c).loose) (Cert.Kernel.Hand.hin m) (Cert.Kernel.Hand.hout m))

/-- So does its idealization. -/
theorem ideal_frame : Cert.frame_KernelIdeal := fun m ρ _ =>
  (θ_run Cert.KernelIdeal.defs _ _).mono (fun _ h c => (h c).2)
    (Cert.KernelIdeal.Hand.run_of (F := Ideal) m ρ (Cert.KernelIdeal.Hand.dats m) (Cert.KernelIdeal.Hand.A_eq m) (Cert.KernelIdeal.Hand.q3 m) (Cert.KernelIdeal.Hand.q4 m) (Cert.KernelIdeal.Hand.q_other m)
      (fun _ _ => rfl) (fun c => (Cert.KernelIdeal.Hand.body_obligation m c).loose) (Cert.KernelIdeal.Hand.hin m) (Cert.KernelIdeal.Hand.hout m))

/-- The reference is host operations only. -/
theorem reference_frame : Cert.frame_ReferenceIdeal := fun m ρ _ =>
  (θ_run Cert.ReferenceIdeal.defs _ _).mono (fun _ h c => (h c).2) (Cert.ReferenceIdeal.Value.run (F := Ideal) m ρ)

/-- Both idealized programs end with the layer of the arguments in their result buffers. -/
theorem same_layer : Cert.algebraic_KernelIdeal_ReferenceIdeal := fun m ρ m' ρ' _ hagree =>
  ⟨fun c => Cert.KernelIdeal.Hand.layerOf m c,
    (θ_run Cert.KernelIdeal.defs _ _).mono
      (fun _ h c => ⟨(h c).1.trans (Cert.KernelIdeal.Hand.result_is_layer m c _), (h c).2⟩)
      (Cert.KernelIdeal.Hand.run_of (F := Ideal) m ρ (Cert.KernelIdeal.Hand.dats m) (Cert.KernelIdeal.Hand.A_eq m) (Cert.KernelIdeal.Hand.q3 m) (Cert.KernelIdeal.Hand.q4 m) (Cert.KernelIdeal.Hand.q_other m)
      (fun _ _ => rfl) (fun c => (Cert.KernelIdeal.Hand.body_obligation m c).loose) (Cert.KernelIdeal.Hand.hin m) (Cert.KernelIdeal.Hand.hout m)),
    (θ_run Cert.ReferenceIdeal.defs _ _).mono
      (fun _ h c => ⟨by
        rw [(h c).1, Cert.ReferenceIdeal.Read.val_main_v17_eq, Cert.GraphConv.Ref.ref_is_layer,
          (hagree c).1, (hagree c).2.1, (hagree c).2.2.1, (hagree c).2.2.2], (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    kernel_frame, ideal_frame, reference_frame, trivial, same_layer⟩

end Cert.Proof

end
